-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1000 : Shape := ⟨2, ![100000, 1000]⟩
abbrev S100000 : Shape := ⟨1, ![100000]⟩
abbrev S_ : Shape := ⟨0, ![]⟩

class Facts : Prop where
  bcast_S_S100000x1000 : S_.BroadcastsInDim S100000x1000 (![] : Fin 0 → Fin S100000x1000.rank)
  reducesTo_S100000x1000_S_d0_1 : S100000x1000.ReducesTo [0, 1] S_
  h_S_ : 0 < S_.numel

variable [Facts]

def fn {F : FTy → Type} [FloatOps F] (main_arg0 : FVec F S100000x1000 .f32) (main_arg1 : IVec S100000 32) : IVec S_ 1 :=
  let main_v0 : FVec F S100000x1000 .f32 := Host.absf main_arg0
  let main_cst : FVec F S_ .f32 := constant S_ .f32 0x7F800000#32
  let main_v1 : FVec F S100000x1000 .f32 := broadcastInDim S100000x1000 ![] bcast_S_S100000x1000 main_cst
  let main_v2 : IVec S100000x1000 1 := cmpf .olt main_v0 main_v1
  let main_c : IVec S_ 1 := constantI S_ 1 1#1
  let main_v3 : IVec S_ 1 := (fun x v => Host.reduce IntOp.andi x v reducesTo_S100000x1000_S_d0_1 h_S_) main_v2 main_c
  main_v3
-- ==== Kernel.lean ====
abbrev S100000x1000 : Shape := ⟨2, ![100000, 1000]⟩
abbrev S100000 : Shape := ⟨1, ![100000]⟩
abbrev S100000x1 : Shape := ⟨2, ![100000, 1]⟩
abbrev S2x15x1000 : Shape := ⟨3, ![2, 15, 1000]⟩
abbrev S400x1000 : Shape := ⟨2, ![400, 1000]⟩
abbrev S400x1 : Shape := ⟨2, ![400, 1]⟩
abbrev S1x15x1000 : Shape := ⟨3, ![1, 15, 1000]⟩
abbrev S15x1000 : Shape := ⟨2, ![15, 1000]⟩
abbrev S1x1x1000 : Shape := ⟨3, ![1, 1, 1000]⟩
abbrev S1000 : Shape := ⟨1, ![1000]⟩
abbrev S_ : Shape := ⟨0, ![]⟩
abbrev S1000x15 : Shape := ⟨2, ![1000, 15]⟩

abbrev nBuf : Space → Nat
  | .hbm => 39
  | .vmem => 10
  | .smem => 0
  | _ => 0

abbrev bufTy : (tb : Table) → Fin (tcTables nBuf tb) → BufTy
  | .hbm, ⟨0, _⟩ => ⟨S100000x1000, .f32⟩
  | .hbm, ⟨1, _⟩ => ⟨S100000, .i32⟩
  | .hbm, ⟨2, _⟩ => ⟨S100000x1, .i32⟩
  | .hbm, ⟨3, _⟩ => ⟨S2x15x1000, .f32⟩
  | .hbm, ⟨4, _⟩ => ⟨S2x15x1000, .f32⟩
  | .hbm, ⟨5, _⟩ => ⟨S2x15x1000, .f32⟩
  | .hbm, ⟨6, _⟩ => ⟨S_, .f32⟩
  | .hbm, ⟨7, _⟩ => ⟨S15x1000, .f32⟩
  | .hbm, ⟨8, _⟩ => ⟨S_, .f32⟩
  | .hbm, ⟨9, _⟩ => ⟨S15x1000, .f32⟩
  | .hbm, ⟨10, _⟩ => ⟨S_, .f32⟩
  | .hbm, ⟨11, _⟩ => ⟨S15x1000, .f32⟩
  | .hbm, ⟨12, _⟩ => ⟨S1000x15, .f32⟩
  | .hbm, ⟨13, _⟩ => ⟨S1000x15, .f32⟩
  | .hbm, ⟨14, _⟩ => ⟨S1000x15, .f32⟩
  | .hbm, ⟨15, _⟩ => ⟨S_, .f32⟩
  | .hbm, ⟨16, _⟩ => ⟨S1000x15, .f32⟩
  | .hbm, ⟨17, _⟩ => ⟨S1000x15, .f32⟩
  | .hbm, ⟨18, _⟩ => ⟨S_, .f32⟩
  | .hbm, ⟨19, _⟩ => ⟨S1000x15, .f32⟩
  | .hbm, ⟨20, _⟩ => ⟨S1000x15, .i1⟩
  | .hbm, ⟨21, _⟩ => ⟨S_, .f32⟩
  | .hbm, ⟨22, _⟩ => ⟨S1000x15, .f32⟩
  | .hbm, ⟨23, _⟩ => ⟨S1000x15, .f32⟩
  | .hbm, ⟨24, _⟩ => ⟨S1000x15, .f32⟩
  | .hbm, ⟨25, _⟩ => ⟨S1000x15, .f32⟩
  | .hbm, ⟨26, _⟩ => ⟨S1000x15, .f32⟩
  | .hbm, ⟨27, _⟩ => ⟨S1000x15, .f32⟩
  | .hbm, ⟨28, _⟩ => ⟨S1000x15, .f32⟩
  | .hbm, ⟨29, _⟩ => ⟨S_, .f32⟩
  | .hbm, ⟨30, _⟩ => ⟨S_, .f32⟩
  | .hbm, ⟨31, _⟩ => ⟨S1000x15, .f32⟩
  | .hbm, ⟨32, _⟩ => ⟨S1000x15, .f32⟩
  | .hbm, ⟨33, _⟩ => ⟨S_, .f32⟩
  | .hbm, ⟨34, _⟩ => ⟨S1000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S400x1000, .f32⟩
  | .local _ .vmem, ⟨1, _⟩ => ⟨S400x1000, .f32⟩
  | .local _ .vmem, ⟨2, _⟩ => ⟨S400x1, .i32⟩
  | .local _ .vmem, ⟨3, _⟩ => ⟨S400x1, .i32⟩
  | .local _ .vmem, ⟨4, _⟩ => ⟨S1x15x1000, .f32⟩
  | .local _ .vmem, ⟨5, _⟩ => ⟨S1x15x1000, .f32⟩
  | .local _ .vmem, ⟨6, _⟩ => ⟨S1x15x1000, .f32⟩
  | .local _ .vmem, ⟨7, _⟩ => ⟨S1x15x1000, .f32⟩
  | .local _ .vmem, ⟨8, _⟩ => ⟨S1x15x1000, .f32⟩
  | .local _ .vmem, ⟨9, _⟩ => ⟨S1x15x1000, .f32⟩
  | _, _ => ⟨S100000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x15x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x15x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S100000_S100000x1 : S100000.ShapeCasts S100000x1
  inb_S1x15x1000_S1x15x1000_0_0_0 : ∀ a, (![0, 0, 0] : Fin 3 → Nat) a + S1x15x1000.size a ≤ S1x15x1000.size a
  h_S1x15x1000 : 0 < S1x15x1000.numel
  shapeCasts_S1x15x1000_S15x1000 : S1x15x1000.ShapeCasts S15x1000
  shapeCasts_S15x1000_S1x15x1000 : S15x1000.ShapeCasts S1x15x1000
  inb_S400x1000_S400x1000_0_0 : ∀ a, (![0, 0] : Fin 2 → Nat) a + S400x1000.size a ≤ S400x1000.size a
  h_S400x1000 : 0 < S400x1000.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  iota_S400x1000_d1_w32 : S400x1000.Iotas .tc 32 [1]
  broadcasts_S400x1_S400x1000 : S400x1.Broadcasts S400x1000
  natLt_1_32 : 1 < 32
  inb_S1x15x1000_S1x1x1000_0_0_0 : ∀ a, (![0, 0, 0] : Fin 3 → Nat) a + S1x1x1000.size a ≤ S1x15x1000.size a
  h_S1x1x1000 : 0 < S1x1x1000.numel
  shapeCasts_S1x1x1000_S1000 : S1x1x1000.ShapeCasts S1000
  reduces_S400x1000_S1000 : S400x1000.Reduces [0] S1000
  shapeCasts_S1000_S1x1x1000 : S1000.ShapeCasts S1x1x1000
  inb_S1x15x1000_S1x1x1000_0_1_0 : ∀ a, (![0, 1, 0] : Fin 3 → Nat) a + S1x1x1000.size a ≤ S1x15x1000.size a
  inb_S1x15x1000_S1x1x1000_0_2_0 : ∀ a, (![0, 2, 0] : Fin 3 → Nat) a + S1x1x1000.size a ≤ S1x15x1000.size a
  inb_S1x15x1000_S1x1x1000_0_3_0 : ∀ a, (![0, 3, 0] : Fin 3 → Nat) a + S1x1x1000.size a ≤ S1x15x1000.size a
  inb_S1x15x1000_S1x1x1000_0_4_0 : ∀ a, (![0, 4, 0] : Fin 3 → Nat) a + S1x1x1000.size a ≤ S1x15x1000.size a
  inb_S1x15x1000_S1x1x1000_0_5_0 : ∀ a, (![0, 5, 0] : Fin 3 → Nat) a + S1x1x1000.size a ≤ S1x15x1000.size a
  inb_S1x15x1000_S1x1x1000_0_6_0 : ∀ a, (![0, 6, 0] : Fin 3 → Nat) a + S1x1x1000.size a ≤ S1x15x1000.size a
  inb_S1x15x1000_S1x1x1000_0_7_0 : ∀ a, (![0, 7, 0] : Fin 3 → Nat) a + S1x1x1000.size a ≤ S1x15x1000.size a
  inb_S1x15x1000_S1x1x1000_0_8_0 : ∀ a, (![0, 8, 0] : Fin 3 → Nat) a + S1x1x1000.size a ≤ S1x15x1000.size a
  inb_S1x15x1000_S1x1x1000_0_9_0 : ∀ a, (![0, 9, 0] : Fin 3 → Nat) a + S1x1x1000.size a ≤ S1x15x1000.size a
  inb_S1x15x1000_S1x1x1000_0_10_0 : ∀ a, (![0, 10, 0] : Fin 3 → Nat) a + S1x1x1000.size a ≤ S1x15x1000.size a
  inb_S1x15x1000_S1x1x1000_0_11_0 : ∀ a, (![0, 11, 0] : Fin 3 → Nat) a + S1x1x1000.size a ≤ S1x15x1000.size a
  inb_S1x15x1000_S1x1x1000_0_12_0 : ∀ a, (![0, 12, 0] : Fin 3 → Nat) a + S1x1x1000.size a ≤ S1x15x1000.size a
  inb_S1x15x1000_S1x1x1000_0_13_0 : ∀ a, (![0, 13, 0] : Fin 3 → Nat) a + S1x1x1000.size a ≤ S1x15x1000.size a
  inb_S1x15x1000_S1x1x1000_0_14_0 : ∀ a, (![0, 14, 0] : Fin 3 → Nat) a + S1x1x1000.size a ≤ S1x15x1000.size a
  reducesTo_S2x15x1000_S15x1000_d0 : S2x15x1000.ReducesTo [0] S15x1000
  h_S_ : 0 < S_.numel
  transposes_S15x1000_S1000x15_1_0 : S15x1000.Transposes [1, 0] S1000x15
  bcast_S_S1000x15 : S_.BroadcastsInDim S1000x15 (![] : Fin 0 → Fin S1000x15.rank)
  reducesTo_S1000x15_S1000_d1 : S1000x15.ReducesTo [1] S1000
  reducesTo_S1000_S_d0 : S1000.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1000.size a ≤ S100000x1000.size a
  hwx0_0 : ∀ i : grid0.Coords, EltTy.bits .f32 = 32 ∨ (Rect.block (s := S100000x1000) S400x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S100000x1.size a
  hwx0_1 : ∀ i : grid0.Coords, EltTy.bits .i32 = 32 ∨ (Rect.block (s := S100000x1) S400x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x1000.size a ≤ S2x15x1000.size a
  hwx0_2 : ∀ i : grid0.Coords, EltTy.bits .f32 = 32 ∨ (Rect.block (s := S2x15x1000) S1x15x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x15x1000.size a ≤ S2x15x1000.size a
  hwx0_3 : ∀ i : grid0.Coords, EltTy.bits .f32 = 32 ∨ (Rect.block (s := S2x15x1000) S1x15x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x15x1000.size a ≤ S2x15x1000.size a
  hwx0_4 : ∀ i : grid0.Coords, EltTy.bits .f32 = 32 ∨ (Rect.block (s := S2x15x1000) S1x15x1000.size (cc0_transform_4 i) (hinb0_4 i)).WholeWords (EltTy.packing .f32)

variable [Facts₀]

abbrev win0_0 : Pipeline.Window sig grid0 :=
  Pipeline.Window.ofSpec (Memref.whole main_arg0) S400x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x15x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x15x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x15x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x1000 : Shape := ⟨2, ![100000, 1000]⟩
abbrev S100000 : Shape := ⟨1, ![100000]⟩
abbrev S_ : Shape := ⟨0, ![]⟩
abbrev S1000 : Shape := ⟨1, ![1000]⟩
abbrev S1x1000 : Shape := ⟨2, ![1, 1000]⟩
abbrev S100000000 : Shape := ⟨1, ![100000000]⟩
abbrev S15001 : Shape := ⟨1, ![15001]⟩
abbrev S100000000x1 : Shape := ⟨2, ![100000000, 1]⟩
abbrev S15000 : Shape := ⟨1, ![15000]⟩
abbrev S1000x15 : Shape := ⟨2, ![1000, 15]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x1000, .f32⟩
  | .hbm, ⟨1, _⟩ => ⟨S100000, .i32⟩
  | .hbm, ⟨2, _⟩ => ⟨S_, .f32⟩
  | .hbm, ⟨3, _⟩ => ⟨S100000x1000, .f32⟩
  | .hbm, ⟨4, _⟩ => ⟨S100000x1000, .f32⟩
  | .hbm, ⟨5, _⟩ => ⟨S100000x1000, .f32⟩
  | .hbm, ⟨6, _⟩ => ⟨S100000x1000, .i32⟩
  | .hbm, ⟨7, _⟩ => ⟨S_, .i32⟩
  | .hbm, ⟨8, _⟩ => ⟨S100000x1000, .i32⟩
  | .hbm, ⟨9, _⟩ => ⟨S100000x1000, .i32⟩
  | .hbm, ⟨10, _⟩ => ⟨S_, .i32⟩
  | .hbm, ⟨11, _⟩ => ⟨S100000x1000, .i32⟩
  | .hbm, ⟨12, _⟩ => ⟨S100000x1000, .i32⟩
  | .hbm, ⟨13, _⟩ => ⟨S_, .i32⟩
  | .hbm, ⟨14, _⟩ => ⟨S100000x1000, .i32⟩
  | .hbm, ⟨15, _⟩ => ⟨S100000x1000, .i1⟩
  | .hbm, ⟨16, _⟩ => ⟨S1000, .i32⟩
  | .hbm, ⟨17, _⟩ => ⟨S1x1000, .i32⟩
  | .hbm, ⟨18, _⟩ => ⟨S_, .i32⟩
  | .hbm, ⟨19, _⟩ => ⟨S1x1000, .i32⟩
  | .hbm, ⟨20, _⟩ => ⟨S1x1000, .i32⟩
  | .hbm, ⟨21, _⟩ => ⟨S100000x1000, .i32⟩
  | .hbm, ⟨22, _⟩ => ⟨S100000x1000, .i32⟩
  | .hbm, ⟨23, _⟩ => ⟨S_, .i32⟩
  | .hbm, ⟨24, _⟩ => ⟨S_, .i32⟩
  | .hbm, ⟨25, _⟩ => ⟨S100000x1000, .i32⟩
  | .hbm, ⟨26, _⟩ => ⟨S100000x1000, .i32⟩
  | .hbm, ⟨27, _⟩ => ⟨S100000000, .i32⟩
  | .hbm, ⟨28, _⟩ => ⟨S_, .f32⟩
  | .hbm, ⟨29, _⟩ => ⟨S100000x1000, .f32⟩
  | .hbm, ⟨30, _⟩ => ⟨S100000000, .f32⟩
  | .hbm, ⟨31, _⟩ => ⟨S_, .f32⟩
  | .hbm, ⟨32, _⟩ => ⟨S15001, .f32⟩
  | .hbm, ⟨33, _⟩ => ⟨S100000000x1, .i32⟩
  | .hbm, ⟨34, _⟩ => ⟨S15001, .f32⟩
  | .hbm, ⟨35, _⟩ => ⟨S15000, .f32⟩
  | .hbm, ⟨36, _⟩ => ⟨S1000x15, .f32⟩
  | .hbm, ⟨37, _⟩ => ⟨S100000000, .f32⟩
  | .hbm, ⟨38, _⟩ => ⟨S_, .f32⟩
  | .hbm, ⟨39, _⟩ => ⟨S15001, .f32⟩
  | .hbm, ⟨40, _⟩ => ⟨S100000000x1, .i32⟩
  | .hbm, ⟨41, _⟩ => ⟨S15001, .f32⟩
  | .hbm, ⟨42, _⟩ => ⟨S15000, .f32⟩
  | .hbm, ⟨43, _⟩ => ⟨S1000x15, .f32⟩
  | .hbm, ⟨44, _⟩ => ⟨S100000x1, .i32⟩
  | .hbm, ⟨45, _⟩ => ⟨S1000, .i32⟩
  | .hbm, ⟨46, _⟩ => ⟨S1x1000, .i32⟩
  | .hbm, ⟨47, _⟩ => ⟨S100000x1000, .i32⟩
  | .hbm, ⟨48, _⟩ => ⟨S100000x1000, .i32⟩
  | .hbm, ⟨49, _⟩ => ⟨S100000x1000, .i1⟩
  | .hbm, ⟨50, _⟩ => ⟨S100000x1000, .f32⟩
  | .hbm, ⟨51, _⟩ => ⟨S100000000, .f32⟩
  | .hbm, ⟨52, _⟩ => ⟨S_, .f32⟩
  | .hbm, ⟨53, _⟩ => ⟨S15001, .f32⟩
  | .hbm, ⟨54, _⟩ => ⟨S100000000x1, .i32⟩
  | .hbm, ⟨55, _⟩ => ⟨S15001, .f32⟩
  | .hbm, ⟨56, _⟩ => ⟨S15000, .f32⟩
  | .hbm, ⟨57, _⟩ => ⟨S1000x15, .f32⟩
  | .hbm, ⟨58, _⟩ => ⟨S_, .f32⟩
  | .hbm, ⟨59, _⟩ => ⟨S1000x15, .f32⟩
  | .hbm, ⟨60, _⟩ => ⟨S1000x15, .f32⟩
  | .hbm, ⟨61, _⟩ => ⟨S_, .f32⟩
  | .hbm, ⟨62, _⟩ => ⟨S1000x15, .f32⟩
  | .hbm, ⟨63, _⟩ => ⟨S1000x15, .i1⟩
  | .hbm, ⟨64, _⟩ => ⟨S_, .f32⟩
  | .hbm, ⟨65, _⟩ => ⟨S1000x15, .f32⟩
  | .hbm, ⟨66, _⟩ => ⟨S1000x15, .f32⟩
  | .hbm, ⟨67, _⟩ => ⟨S1000x15, .f32⟩
  | .hbm, ⟨68, _⟩ => ⟨S1000x15, .f32⟩
  | .hbm, ⟨69, _⟩ => ⟨S1000x15, .f32⟩
  | .hbm, ⟨70, _⟩ => ⟨S1000x15, .f32⟩
  | .hbm, ⟨71, _⟩ => ⟨S1000x15, .f32⟩
  | .hbm, ⟨72, _⟩ => ⟨S_, .f32⟩
  | .hbm, ⟨73, _⟩ => ⟨S_, .f32⟩
  | .hbm, ⟨74, _⟩ => ⟨S1000x15, .f32⟩
  | .hbm, ⟨75, _⟩ => ⟨S1000x15, .f32⟩
  | .hbm, ⟨76, _⟩ => ⟨S_, .f32⟩
  | .hbm, ⟨77, _⟩ => ⟨S1000, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S100000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_call1_v0 : Ref sig .tc := ⟨.hbm, 73, rfl⟩
abbrev main_call1_v1 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  bcast_S_S100000x1000 : S_.BroadcastsInDim S100000x1000 (![] : Fin 0 → Fin S100000x1000.rank)
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S100000x1000_0_1 : S1x1000.BroadcastsInDim S100000x1000 (![0, 1] : Fin 2 → Fin S100000x1000.rank)
  shapeCasts_S100000x1000_S100000000 : S100000x1000.ShapeCasts S100000000
  bcast_S_S15001 : S_.BroadcastsInDim S15001 (![] : Fin 0 → Fin S15001.rank)
  bcast_S100000000_S100000000x1_0 : S100000000.BroadcastsInDim S100000000x1 (![0] : Fin 1 → Fin S100000000x1.rank)
  slices_S15001_S15000_0 : S15001.Slices ![0] S15000
  shapeCasts_S15000_S1000x15 : S15000.ShapeCasts S1000x15
  bcast_S100000_S100000x1_0 : S100000.BroadcastsInDim S100000x1 (![0] : Fin 1 → Fin S100000x1.rank)
  bcast_S100000x1_S100000x1000_0_1 : S100000x1.BroadcastsInDim S100000x1000 (![0, 1] : Fin 2 → Fin S100000x1000.rank)
  bcast_S_S1000x15 : S_.BroadcastsInDim S1000x15 (![] : Fin 0 → Fin S1000x15.rank)
  reducesTo_S1000x15_S1000_d1 : S1000x15.ReducesTo [1] S1000
  h_S_ : 0 < S_.numel
  reducesTo_S1000_S_d0 : S1000.ReducesTo [0] S_
  scatter_S15001_S100000000x1_S100000000_n_0_0_1_wf : ScatterDims.WF S15001 S100000000x1 S100000000 [] [0] [0] 1

variable [Facts₀]

def scatter_S15001_S100000000x1_S100000000_n_0_0_1 : ScatterDims S15001 S100000000x1 S100000000 where
  updateWindowDims := []
  insertedWindowDims := [0]
  scatterDimsToOperandDims := [0]
  indexVectorDim := 1
  wf := scatter_S15001_S100000000x1_S100000000_n_0_0_1_wf

class Facts : Prop extends Facts₀ where

variable [Facts]
-- ==== Proof.Spec.lean ====
/-
  Classwise calibration histograms, stated once for both programs.

  A confidence `x` falls in bin `binOf x` = ⌈15·x⌉ − 1 (a 32-bit word, capped at 14); it is counted only when that
  word is nonnegative read signed.  For a class `c` and a bin `b` three sums run over the 100000 samples `n`:
  how many samples have `x(n, c)` in bin `b` (`countAt`), the sum of those confidences (`confAt`), and the sum
  over them of the indicator that sample `n`'s label is `c` (`corrAt`).  Both programs finish with the same
  arithmetic on these three 1000 × 15 tables (`tail`): per class and bin, |mean confidence − accuracy| weighted by the
  bin's share of the samples, empty bins skipped, summed over bins and averaged over classes.
-/
import Idealize.ShloMosaic.PureOps.Ideal
import Idealize.ShloMosaic.Lib.ValueIdx

noncomputable section

open scoped BigOperators

namespace Cert.Ece

open Idealize.ShloMosaic Idealize.ShloMosaic.ValueIdx

abbrev SX : Shape := ⟨2, ![100000, 1000]⟩
abbrev SLbl : Shape := ⟨1, ![100000]⟩
abbrev SH : Shape := ⟨2, ![1000, 15]⟩
abbrev SC : Shape := ⟨1, ![1000]⟩
abbrev S0 : Shape := ⟨0, ![]⟩

/-- The bin number of a confidence: ⌈15·x⌉ − 1 as a 32-bit word, capped at 14. -/
def binOf (x : Ideal .f32) : BitVec 32 :=
  IntOp.minsi (IntOp.subi (FloatOps.fptosi 32 (FloatOps.ceil (FloatOps.mulf x (FloatOps.ofBits .f32 0x41700000#32)))) 1#32) 14#32

/-- The bin number is nonnegative (read signed): the confidence is positive. -/
def valid (x : Ideal .f32) : BitVec 1 := IntOp.cmpi .sge (binOf x) 0#32

/-- The confidence is counted in bin `b`. -/
def inBin (x : Ideal .f32) (b : BitVec 32) : BitVec 1 := IntOp.andi (valid x) (IntOp.cmpi .eq (binOf x) b)

/-- The label `l` is the class `c`. -/
def hit (l c : BitVec 32) : BitVec 1 := IntOp.cmpi .eq l c

/-- A truth value as a number: 0 or 1. -/
def ind (p : BitVec 1) : EReal := ((p.toNat : ℝ) : EReal)

/-- The segment number the reference files entry `(n, c')` under: `bin + 15·c'` when counted, the dump segment 15000 otherwise. -/
def segOf (x : Ideal .f32) (c' : BitVec 32) : BitVec 32 :=
  Scalar.select (valid x) (IntOp.addi (binOf x) (IntOp.muli c' 15#32)) 15000#32

/-- How many samples have their class-`c` confidence in bin `b`. -/
def countAt (x : FVec Ideal SX .f32) (c : Fin 1000) (b : Fin 15) : EReal :=
  ∑ n : Fin 100000, if inBin (x (ix2 n c)) (BitVec.ofNat 32 b.val) = 1#1 then (1 : EReal) else 0

/-- The sum of those confidences. -/
def confAt (x : FVec Ideal SX .f32) (c : Fin 1000) (b : Fin 15) : EReal :=
  ∑ n : Fin 100000, if inBin (x (ix2 n c)) (BitVec.ofNat 32 b.val) = 1#1 then x (ix2 n c) else 0

/-- The number of those samples whose label is `c`. -/
def corrAt (x : FVec Ideal SX .f32) (l : IVec SLbl 32) (c : Fin 1000) (b : Fin 15) : EReal :=
  ∑ n : Fin 100000, if inBin (x (ix2 n c)) (BitVec.ofNat 32 b.val) = 1#1
    then ind (hit (l (ix1 n)) (BitVec.ofNat 32 c.val)) else 0

def counts (x : FVec Ideal SX .f32) : FVec Ideal SH .f32 := fun j => countAt x (j 0) (j 1)
def confs (x : FVec Ideal SX .f32) : FVec Ideal SH .f32 := fun j => confAt x (j 0) (j 1)
def corrs (x : FVec Ideal SX .f32) (l : IVec SLbl 32) : FVec Ideal SH .f32 := fun j => corrAt x l (j 0) (j 1)

/-- What both programs do with the three tables: the share of the samples in each bin, the mean confidence and the
    accuracy over `max(count, 1)`, their distance weighted by the share where the bin is nonempty, summed over the bins
    and averaged over the 1000 classes. -/
def tail (cnt cf cr : FVec Ideal SH .f32)
    (hb : S0.BroadcastsInDim SH (![] : Fin 0 → Fin SH.rank)) (hr1 : SH.ReducesTo [1] SC) (hr0 : SC.ReducesTo [0] S0)
    (h0 : 0 < S0.numel) : FVec Ideal S0 .f32 :=
  Host.divf (F := Ideal)
    (Host.reduceAdd (F := Ideal)
      (Host.reduceAdd (F := Ideal)
        (select (cmpf (F := Ideal) .ogt cnt (broadcastInDim SH ![] hb (constant (F := Ideal) S0 .f32 0x00000000#32)))
          (mulf (Host.absf (F := Ideal) (subf
              (Host.divf (F := Ideal) cf (maximumf cnt (broadcastInDim SH ![] hb (constant (F := Ideal) S0 .f32 0x3F800000#32))))
              (Host.divf (F := Ideal) cr (maximumf cnt (broadcastInDim SH ![] hb (constant (F := Ideal) S0 .f32 0x3F800000#32))))))
            (Host.divf (F := Ideal) cnt (broadcastInDim SH ![] hb (constant (F := Ideal) S0 .f32 0x47C35000#32))))
          (broadcastInDim SH ![] hb (constant (F := Ideal) S0 .f32 0x00000000#32)))
        (constant (F := Ideal) S0 .f32 0x00000000#32) hr1 h0)
      (constant (F := Ideal) S0 .f32 0x00000000#32) hr0 h0)
    (constant (F := Ideal) S0 .f32 0x447A0000#32)

/-! ## Truth values as numbers -/

theorem bit_cases (p : BitVec 1) : p = 0#1 ∨ p = 1#1 := by
  revert p; decide

theorem ind_eq (p : BitVec 1) : ind p = if p = 1#1 then (1 : EReal) else 0 := by
  rcases bit_cases p with rfl | rfl
  · simp [ind]
  · simp [ind]

/-- A truth value widened to 32 bits and read signed is the same number. -/
theorem sitofp_setWidth (p : BitVec 1) : FloatOps.sitofp (F := Ideal) .f32 (p.setWidth 32) = ind p := by
  rcases bit_cases p with rfl | rfl
  · have h : ((0#1 : BitVec 1).setWidth 32).toInt = 0 := by decide
    show ((((0#1 : BitVec 1).setWidth 32).toInt : ℝ) : EReal) = _
    rw [h]; simp [ind]
  · have h : ((1#1 : BitVec 1).setWidth 32).toInt = 1 := by decide
    show ((((1#1 : BitVec 1).setWidth 32).toInt : ℝ) : EReal) = _
    rw [h]; simp [ind]

/-- A truth value read unsigned is the same number. -/
theorem uitofp_bit (p : BitVec 1) : FloatOps.uitofp (F := Ideal) .f32 p = ind p := rfl

theorem ind_mul (p : BitVec 1) (u : EReal) : ind p * u = if p = 1#1 then u else 0 := by
  rcases bit_cases p with rfl | rfl
  · simp [ind]
  · simp [ind]

/-- The f32 word 0x3F800000 is the number one. -/
theorem one_f32 : Ideal.ofBits .f32 0x3F800000#32 = (1 : EReal) := by
  simp [Ideal.ofBits, Ideal.ieee]
  rw [← EReal.coe_mul, ← EReal.coe_one]
  congr 1
  norm_num

end Cert.Ece

end
-- ==== Proof.Seg.lean ====
/-
  The reference files entry (n, c') of the confidence table under the segment number bin + 15·c' when the entry is
  counted and under the dump number 15000 otherwise.  Since a counted bin number lies in [0, 14] and c' < 1000, the
  sum does not wrap, and the segment number is 15·c + b (c < 1000, b < 15) exactly when c' = c and the entry is
  counted in bin b; the dump number is none of these.
-/
import proofs.«164000_j20916490731796_1_alg».proof.Proof.Spec

noncomputable section

namespace Cert.Ece

open Idealize.ShloMosaic

private theorem toInt_14 : (14#32 : BitVec 32).toInt = 14 := by decide

private theorem toInt_15000 : (15000#32 : BitVec 32).toInt = 15000 := by decide

/-- The capped word is at most 14 read signed. -/
private theorem minsi_le (u : BitVec 32) : (IntOp.minsi u 14#32).toInt ≤ 14 := by
  unfold IntOp.minsi
  split
  · rename_i h
    rw [BitVec.slt, decide_eq_true_eq, toInt_14] at h
    omega
  · rw [toInt_14]

/-- A word in [0, 14] read signed is the same number read unsigned. -/
private theorem toNat_of_range (v : BitVec 32) (h0 : 0 ≤ v.toInt) (h1 : v.toInt ≤ 14) :
    (v.toNat : Int) = v.toInt ∧ v.toNat ≤ 14 := by
  rw [BitVec.toInt_eq_toNat_cond] at h0 h1 ⊢
  have := v.isLt
  split at h0 <;> omega

/-- For a bin number in [0, 14] and a class below 1000 the sum bin + 15·class does not wrap. -/
private theorem seg_valid (v : BitVec 32) (c' : Fin 1000) (h0 : 0 ≤ v.toInt) (h1 : v.toInt ≤ 14) :
    (IntOp.addi v (IntOp.muli (BitVec.ofNat 32 c'.val) 15#32)).toInt = v.toInt + 15 * (c'.val : Int) := by
  obtain ⟨hn, hle⟩ := toNat_of_range v h0 h1
  have hc := c'.isLt
  unfold IntOp.addi IntOp.muli
  rw [← hn, BitVec.toInt_eq_toNat_cond]
  simp only [BitVec.toNat_add, BitVec.toNat_mul, BitVec.toNat_ofNat]
  omega

/-- The sign test as a proposition. -/
private theorem sge_zero (v : BitVec 32) : IntOp.cmpi .sge v 0#32 = 1#1 ↔ 0 ≤ v.toInt := by
  unfold IntOp.cmpi
  by_cases h : 0 ≤ v.toInt
  · simp [BitVec.sle, h]
  · simp [BitVec.sle, h]

/-- The equality test as a proposition. -/
private theorem eq_one (v w : BitVec 32) : IntOp.cmpi .eq v w = 1#1 ↔ v = w := by
  unfold IntOp.cmpi
  by_cases h : v = w
  · simp [h]
  · have hf : (v == w) = false := beq_eq_false_iff_ne.mpr h
    simp [h, hf]

/-- A word in [0, 14] is the word of a number b < 15 exactly when it is that number read signed. -/
private theorem eq_ofNat_iff (v : BitVec 32) (b : Fin 15) (h0 : 0 ≤ v.toInt) (h1 : v.toInt ≤ 14) :
    v = BitVec.ofNat 32 b.val ↔ v.toInt = (b.val : Int) := by
  obtain ⟨hn, hle⟩ := toNat_of_range v h0 h1
  have hb := b.isLt
  rw [← BitVec.toNat_inj, BitVec.toNat_ofNat, ← hn]
  omega

/-- The statement for an arbitrary word v that is at most 14 read signed in place of the bin number. -/
private theorem core (v : BitVec 32) (hv : v.toInt ≤ 14) (c' c : Fin 1000) (b : Fin 15) :
    (Scalar.select (IntOp.cmpi .sge v 0#32) (IntOp.addi v (IntOp.muli (BitVec.ofNat 32 c'.val) 15#32)) 15000#32).toInt
        = ((c.val * 15 + b.val : ℕ) : Int)
      ↔ (c' = c ∧ IntOp.andi (IntOp.cmpi .sge v 0#32) (IntOp.cmpi .eq v (BitVec.ofNat 32 b.val)) = 1#1) := by
  have hc' := c'.isLt
  have hc := c.isLt
  have hb := b.isLt
  by_cases h0 : 0 ≤ v.toInt
  · have hval : IntOp.cmpi .sge v 0#32 = 1#1 := (sge_zero v).2 h0
    have hand : IntOp.andi (1#1) (IntOp.cmpi .eq v (BitVec.ofNat 32 b.val)) = IntOp.cmpi .eq v (BitVec.ofNat 32 b.val) := by
      rcases bit_cases (IntOp.cmpi .eq v (BitVec.ofNat 32 b.val)) with h | h <;> rw [h] <;> decide
    rw [hval, hand, eq_one, eq_ofNat_iff v b h0 hv]
    have hsel : (Scalar.select (1#1) (IntOp.addi v (IntOp.muli (BitVec.ofNat 32 c'.val) 15#32)) 15000#32)
        = IntOp.addi v (IntOp.muli (BitVec.ofNat 32 c'.val) 15#32) := by
      simp [Scalar.select]
    rw [hsel, seg_valid v c' h0 hv, Fin.ext_iff]
    push_cast
    omega
  · have hval : IntOp.cmpi .sge v 0#32 = 0#1 := by
      rcases bit_cases (IntOp.cmpi .sge v 0#32) with h | h
      · exact h
      · exact absurd ((sge_zero v).1 h) h0
    have hand : IntOp.andi (0#1) (IntOp.cmpi .eq v (BitVec.ofNat 32 b.val)) = 0#1 := by
      rcases bit_cases (IntOp.cmpi .eq v (BitVec.ofNat 32 b.val)) with h | h <;> rw [h] <;> decide
    have hsel : (Scalar.select (0#1) (IntOp.addi v (IntOp.muli (BitVec.ofNat 32 c'.val) 15#32)) 15000#32)
        = 15000#32 := by
      simp [Scalar.select]
    rw [hval, hand, hsel, toInt_15000]
    constructor
    · intro h
      push_cast at h
      omega
    · rintro ⟨_, h⟩
      exact absurd h (by decide)

/-- The segment number of an entry of class `c'`, read signed, is `15·c + b` exactly when `c' = c` and the entry is
    counted in bin `b`. -/
theorem seg_toInt_eq_iff (x : Ideal .f32) (c' c : Fin 1000) (b : Fin 15) :
    (segOf x (BitVec.ofNat 32 c'.val)).toInt = ((c.val * 15 + b.val : ℕ) : Int)
      ↔ (c' = c ∧ inBin x (BitVec.ofNat 32 b.val) = 1#1) := by
  unfold segOf inBin valid
  exact core (binOf x) (minsi_le _) c' c b

end Cert.Ece

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.LibScatterCount.lean ====
/-
  The accumulating scatter into a VECTOR over the extended reals, read at an entry.

  `x.at[rows].add(updates)` for a one-axis operand `x : [R]`, `E` row numbers (an integer array `[E, 1]`, read as signed
  words, not clamped) and `E` scalar updates: entry `n` of the result is `x n` plus the sum of the updates whose row
  number is `n`; an update whose number is outside `[0, R)` is dropped.  With every update equal to one this counts
  the occurrences of `n` in the list.  Generic in `R`, `E` and the word width.
-/
import proofs.«164000_j20916490731796_1_alg».proof.Proof.LibScatterRows

noncomputable section

open scoped BigOperators

namespace Cert.LibScatterCount

open Idealize.ShloMosaic Idealize.ShloMosaic.ValueIdx Cert.LibScatterRows

variable {R E w : Nat}
  (wf : ScatterDims.WF ⟨1, ![R]⟩ ⟨2, ![E, 1]⟩ ⟨1, ![E]⟩ [] [0] [0] 1)

/-- THE ACCUMULATING VECTOR SCATTER OVER THE EXTENDED REALS READ AT `n`: the operand's entry plus the sum of the
    updates whose row number is `n`. -/
theorem scatterAdd_vec_apply (x : (⟨1, ![R]⟩ : Shape).Idx → EReal) (idx : IVec ⟨2, ![E, 1]⟩ w)
    (upd : (⟨1, ![E]⟩ : Shape).Idx → EReal) (n : Fin R) :
    Ideal.hostScatterAdd (vecScatterDims R E wf) x idx upd (ix1 n)
      = x (ix1 n) + ∑ e : Fin E, if (idx (rowIdx e)).toInt = (n.val : Int) then upd (ix1 e) else 0 := by
  unfold Ideal.hostScatterAdd
  congr 1
  rw [Finset.sum_filter]
  refine Fintype.sum_equiv idxEquiv1 _ _ fun j => ?_
  obtain ⟨e, rfl⟩ : ∃ e : Fin E, j = ix1 e := ⟨j 0, eq_ix1 j⟩
  show (if (vecScatterDims R E wf).resultIdx? (ix1 e) idx = some (ix1 n) then upd (ix1 e) else 0)
    = if (idx (rowIdx e)).toInt = (n.val : Int) then upd (ix1 e) else 0
  by_cases h : (idx (rowIdx e)).toInt = (n.val : Int)
  · rw [if_pos ((vec_lands_iff wf idx e n).mpr h), if_pos h]
  · rw [if_neg (mt (vec_lands_iff wf idx e n).mp h), if_neg h]

/-- The same for the host operation as a program prints it, whose dimension numbers are these. -/
theorem host_scatterAdd_vec_apply (d : ScatterDims ⟨1, ![R]⟩ ⟨2, ![E, 1]⟩ ⟨1, ![E]⟩) (hd : d = vecScatterDims R E wf)
    (x : FVec Ideal ⟨1, ![R]⟩ .f32) (idx : IVec ⟨2, ![E, 1]⟩ w) (upd : FVec Ideal ⟨1, ![E]⟩ .f32) (n : Fin R) :
    Host.scatterAdd d x idx upd (ix1 n)
      = x (ix1 n) + ∑ e : Fin E, if (idx (rowIdx e)).toInt = (n.val : Int) then upd (ix1 e) else 0 := by
  subst hd
  exact scatterAdd_vec_apply wf x idx upd n

end Cert.LibScatterCount

end
-- ==== Proof.RefRead.lean ====
/-
  The reference program read at an index: each of its three histograms (how many samples, the sum of
  their confidences, the sum of their label indicators, per class and bin) as a sum over the samples.
-/
import proofs.«164000_j20916490731796_1_alg».proof.Proof.RefReadP
import proofs.«164000_j20916490731796_1_alg».proof.Proof.Spec
import proofs.«164000_j20916490731796_1_alg».proof.Proof.Seg
import proofs.«164000_j20916490731796_1_alg».proof.Proof.LibScatterCount

noncomputable section

open scoped BigOperators

namespace Cert.RefRead

open Idealize.ShloMosaic Idealize.ShloMosaic.ValueIdx
open Cert.ReferenceIdeal Cert.ReferenceIdeal.Gen Cert.ReferenceIdeal.ReadP
open Cert.Ece Cert.LibScatterRows Cert.LibScatterCount

/-! ## The closing arithmetic -/

/-- After the three tables the reference does, operation for operation, the closing arithmetic `tail`. -/
theorem result_eq_tail (x0 : FVec Ideal SX .f32) (x1 : IVec SLbl 32)
    (hb : S0.BroadcastsInDim SH (![] : Fin 0 → Fin SH.rank)) (hr1 : SH.ReducesTo [1] SC)
    (hr0 : SC.ReducesTo [0] S0) (h0 : 0 < S0.numel) :
    val_main_v58 (F := Ideal) x0 x1
      = tail (val_main_v24 (F := Ideal) x0) (val_main_v30 (F := Ideal) x0) (val_main_v43 (F := Ideal) x0 x1) hb hr1 hr0 h0 := by
  unfold val_main_v58 val_main_v57 val_main_v56 val_main_v55 val_main_v54 val_main_v53 val_main_v52 val_main_v51
    val_main_v50 val_main_v49 val_main_v48 val_main_v47 val_main_v46 val_main_v45 val_main_v44
    val_main_call1_v1 val_main_call1_v0
    val_main_cst_8 val_main_cst_9 val_main_cst_10 val_main_cst_11 val_main_cst_12 val_main_cst_13 val_main_cst_14 tail
  rfl

/-! ## One flat entry of the row-major `[100000, 1000]` table

  Flat entry `e` is sample `e / 1000`, class `e % 1000`. -/

/-- The sample of flat entry `e`. -/
abbrev rowOf (e : Fin 100000000) : Fin 100000 := ⟨e.val / 1000, by have h := e.isLt; omega⟩
/-- The class of flat entry `e`. -/
abbrev colOf (e : Fin 100000000) : Fin 1000 := ⟨e.val % 1000, by omega⟩

/-- At entry `(n, c')` the reference's segment number is `segOf` of the confidence and the class: the bin number
    is ⌈15·x⌉ − 1 capped at 14, the entry is filed under bin + 15·c' when that is nonnegative and under 15000 otherwise. -/
theorem seg_entry (x0 : FVec Ideal SX .f32) (i : S100000x1000.Idx) :
    val_main_v16 (F := Ideal) x0 i = segOf (x0 i) (BitVec.ofNat 32 (i 1).val) := by
  simp only [val_main_v16_apply, val_main_v9_apply, val_main_v15_apply, val_main_v7_apply, val_main_v5_apply,
    val_main_v3_apply, val_main_v2_apply, val_main_v1_apply, val_main_v0_apply, val_main_cst_apply,
    val_main_v4_apply, val_main_c_apply, val_main_v6_apply, val_main_c_0_apply, val_main_v8_apply, val_main_c_1_apply,
    val_main_v14_apply, val_main_v13_apply, val_main_v11_apply, val_main_v10_apply, val_main_v12_apply,
    val_main_c_2_apply, val_main_call0_v1_apply, val_main_call0_v0_apply, val_main_c_3_apply]
  rfl

/-- The flat list of segment numbers at `e`. -/
theorem seg_flat (x0 : FVec Ideal SX .f32) (e : Fin 100000000) :
    val_main_v17 (F := Ideal) x0 (ix1 e)
      = segOf (x0 (ix2 (rowOf e) (colOf e))) (BitVec.ofNat 32 (colOf e).val) := by
  have hi : idx_main_v17 (ix1 e) = ix2 (rowOf e) (colOf e) := by
    funext a; match a with | ⟨0, _⟩ => rfl | ⟨1, _⟩ => rfl
  rw [val_main_v17_apply, hi, seg_entry]

/-- The three scatters' index lists at `e` are that flat list. -/
theorem idx21_entry (x0 : FVec Ideal SX .f32) (e : Fin 100000000) :
    val_main_v21 (F := Ideal) x0 (rowIdx e)
      = segOf (x0 (ix2 (rowOf e) (colOf e))) (BitVec.ofNat 32 (colOf e).val) := by
  have hi : idx_main_v21 (rowIdx e) = ix1 e := by
    funext a; match a with | ⟨0, _⟩ => rfl
  rw [val_main_v21_apply, hi, seg_flat]
theorem idx27_entry (x0 : FVec Ideal SX .f32) (e : Fin 100000000) :
    val_main_v27 (F := Ideal) x0 (rowIdx e)
      = segOf (x0 (ix2 (rowOf e) (colOf e))) (BitVec.ofNat 32 (colOf e).val) := by
  have hi : idx_main_v27 (rowIdx e) = ix1 e := by
    funext a; match a with | ⟨0, _⟩ => rfl
  rw [val_main_v27_apply, hi, seg_flat]
theorem idx40_entry (x0 : FVec Ideal SX .f32) (e : Fin 100000000) :
    val_main_v40 (F := Ideal) x0 (rowIdx e)
      = segOf (x0 (ix2 (rowOf e) (colOf e))) (BitVec.ofNat 32 (colOf e).val) := by
  have hi : idx_main_v40 (rowIdx e) = ix1 e := by
    funext a; match a with | ⟨0, _⟩ => rfl
  rw [val_main_v40_apply, hi, seg_flat]

/-- The first scatter adds one per entry. -/
theorem one_entry (e : Fin 100000000) : val_main_v19 (F := Ideal) (ix1 e) = (1 : EReal) := by
  rw [val_main_v19_apply, val_main_v18_apply, val_main_cst_4_apply]
  exact one_f32

/-- The second scatter adds the confidence. -/
theorem conf_entry (x0 : FVec Ideal SX .f32) (e : Fin 100000000) :
    val_main_v25 (F := Ideal) x0 (ix1 e) = x0 (ix2 (rowOf e) (colOf e)) := by
  have hi : idx_main_v25 (ix1 e) = ix2 (rowOf e) (colOf e) := by
    funext a; match a with | ⟨0, _⟩ => rfl | ⟨1, _⟩ => rfl
  rw [val_main_v25_apply, hi]

/-- The third scatter adds the indicator that the sample's label is the entry's class. -/
theorem hit_entry (x1 : IVec SLbl 32) (e : Fin 100000000) :
    val_main_v38 (F := Ideal) x1 (ix1 e)
      = ind (hit (x1 (ix1 (rowOf e))) (BitVec.ofNat 32 (colOf e).val)) := by
  have hi : idx_main_v31 (idx_main_v34 (idx_main_v38 (ix1 e))) = ix1 (rowOf e) := by
    funext a; match a with | ⟨0, _⟩ => rfl
  rw [val_main_v38_apply, val_main_v37_apply, val_main_v36_apply, val_main_v34_apply, val_main_v31_apply,
    val_main_v35_apply, val_main_v33_apply, val_main_v32_apply, uitofp_bit, hi]
  rfl

/-- Each scatter starts from zero. -/
theorem zero20_entry (m : Fin 15001) : val_main_v20 (F := Ideal) (ix1 m) = (0 : EReal) := by
  rw [val_main_v20_apply, val_main_cst_5_apply]
  exact Ideal.ofBits_zero_f32
theorem zero26_entry (m : Fin 15001) : val_main_v26 (F := Ideal) (ix1 m) = (0 : EReal) := by
  rw [val_main_v26_apply, val_main_cst_6_apply]
  exact Ideal.ofBits_zero_f32
theorem zero39_entry (m : Fin 15001) : val_main_v39 (F := Ideal) (ix1 m) = (0 : EReal) := by
  rw [val_main_v39_apply, val_main_cst_7_apply]
  exact Ideal.ofBits_zero_f32

/-! ## Sums over the flat entries -/

/-- A pair (sample, class) and its flat entry `1000·n + c'`: division with remainder. -/
def flatEquiv : Fin 100000 × Fin 1000 ≃ Fin 100000000 where
  toFun p := ⟨p.1.val * 1000 + p.2.val, by have h1 := p.1.isLt; have h2 := p.2.isLt; omega⟩
  invFun e := (rowOf e, colOf e)
  left_inv p := by
    obtain ⟨⟨a, ha⟩, ⟨b, hb⟩⟩ := p
    refine Prod.ext (Fin.ext ?_) (Fin.ext ?_)
    · show (a * 1000 + b) / 1000 = a
      omega
    · show (a * 1000 + b) % 1000 = b
      omega
  right_inv e := by
    refine Fin.ext ?_
    show e.val / 1000 * 1000 + e.val % 1000 = e.val
    omega

/-- A sum over the flat entries of a function of (sample, class) is the double sum over samples and classes. -/
theorem sum_flat (f : Fin 100000 → Fin 1000 → EReal) :
    ∑ e : Fin 100000000, f (rowOf e) (colOf e) = ∑ n : Fin 100000, ∑ c' : Fin 1000, f n c' := by
  rw [← Equiv.sum_comp flatEquiv (fun e => f (rowOf e) (colOf e)), Fintype.sum_prod_type]
  refine Finset.sum_congr rfl fun n _ => Finset.sum_congr rfl fun c' _ => ?_
  have h1 : rowOf (flatEquiv (n, c')) = n := congrArg Prod.fst (flatEquiv.symm_apply_apply (n, c'))
  have h2 : colOf (flatEquiv (n, c')) = c' := congrArg Prod.snd (flatEquiv.symm_apply_apply (n, c'))
  show f (rowOf (flatEquiv (n, c'))) (colOf (flatEquiv (n, c'))) = f n c'
  rw [h1, h2]

/-- A sum over the classes of terms that vanish off the class `c` is its term at `c`. -/
theorem sum_class (c : Fin 1000) (P : Fin 1000 → Prop) [DecidablePred P] (u : Fin 1000 → EReal) :
    ∑ c' : Fin 1000, (if c' = c ∧ P c' then u c' else 0) = if P c then u c else 0 := by
  rw [Finset.sum_eq_single c]
  · by_cases h : P c
    · rw [if_pos ⟨rfl, h⟩, if_pos h]
    · rw [if_neg (fun hh => h hh.2), if_neg h]
  · intro c' _ hne
    exact if_neg fun hh => hne hh.1
  · intro h
    exact absurd (Finset.mem_univ c) h

/-! ## A table entry

  Each of the three tables is an accumulating scatter from zero into 15001 segments, every flat entry `e` adding its
  update to the segment `segOf` names.  Segment `15·c + b` receives exactly the entries of class `c` counted in bin `b`,
  one per sample. -/

theorem table_entry (x0 : FVec Ideal SX .f32) (base : FVec Ideal S15001 .f32) (idx : IVec S100000000x1 32)
    (upd : FVec Ideal S100000000 .f32) (u : Fin 100000 → Fin 1000 → EReal)
    (hbase : ∀ m : Fin 15001, base (ix1 m) = 0)
    (hidx : ∀ e : Fin 100000000,
      idx (rowIdx e) = segOf (x0 (ix2 (rowOf e) (colOf e))) (BitVec.ofNat 32 (colOf e).val))
    (hupd : ∀ e : Fin 100000000, upd (ix1 e) = u (rowOf e) (colOf e))
    (c : Fin 1000) (b : Fin 15) (m : Fin 15001) (hm : m.val = c.val * 15 + b.val) :
    Host.scatterAdd scatter_S15001_S100000000x1_S100000000_n_0_0_1 base idx upd (ix1 m)
      = ∑ n : Fin 100000, if inBin (x0 (ix2 n c)) (BitVec.ofNat 32 b.val) = 1#1 then u n c else 0 := by
  rw [host_scatterAdd_vec_apply scatter_S15001_S100000000x1_S100000000_n_0_0_1.wf
    scatter_S15001_S100000000x1_S100000000_n_0_0_1 rfl base idx upd m, hbase, zero_add]
  have hterm : ∀ e : Fin 100000000,
      (if (idx (rowIdx e)).toInt = (m.val : Int) then upd (ix1 e) else 0)
        = (fun (n : Fin 100000) (c' : Fin 1000) =>
            if c' = c ∧ inBin (x0 (ix2 n c')) (BitVec.ofNat 32 b.val) = 1#1 then u n c' else 0) (rowOf e) (colOf e) := by
    intro e
    rw [hidx, hupd, hm]
    exact if_congr (seg_toInt_eq_iff _ (colOf e) c b) rfl rfl
  refine (Finset.sum_congr rfl fun e _ => hterm e).trans ?_
  refine (sum_flat (fun (n : Fin 100000) (c' : Fin 1000) =>
    if c' = c ∧ inBin (x0 (ix2 n c')) (BitVec.ofNat 32 b.val) = 1#1 then u n c' else 0)).trans ?_
  refine Finset.sum_congr rfl fun n _ => ?_
  exact sum_class c (fun c' => inBin (x0 (ix2 n c')) (BitVec.ofNat 32 b.val) = 1#1) (fun c' => u n c')

/-- The flat segment `15·c + b` of table entry `(c, b)`. -/
abbrev segAt (c : Fin 1000) (b : Fin 15) : Fin 15001 :=
  ⟨c.val * 15 + b.val, by have h1 := c.isLt; have h2 := b.isLt; omega⟩

theorem counts_entry (x0 : FVec Ideal SX .f32) (c : Fin 1000) (b : Fin 15) :
    val_main_v24 (F := Ideal) x0 (ix2 c b) = countAt x0 c b := by
  have hi : idx_main_v23 (idx_main_v24 (ix2 c b)) = ix1 (segAt c b) := by
    funext a; match a with | ⟨0, _⟩ => rfl
  rw [val_main_v24_apply, val_main_v23_apply, hi]
  unfold val_main_v22
  exact table_entry x0 _ _ _ (fun _ _ => (1 : EReal)) zero20_entry (idx21_entry x0) one_entry c b _ rfl

theorem confs_entry (x0 : FVec Ideal SX .f32) (c : Fin 1000) (b : Fin 15) :
    val_main_v30 (F := Ideal) x0 (ix2 c b) = confAt x0 c b := by
  have hi : idx_main_v29 (idx_main_v30 (ix2 c b)) = ix1 (segAt c b) := by
    funext a; match a with | ⟨0, _⟩ => rfl
  rw [val_main_v30_apply, val_main_v29_apply, hi]
  unfold val_main_v28
  exact table_entry x0 _ _ _ (fun n c' => x0 (ix2 n c')) zero26_entry (idx27_entry x0) (conf_entry x0) c b _ rfl

theorem corrs_entry (x0 : FVec Ideal SX .f32) (x1 : IVec SLbl 32) (c : Fin 1000) (b : Fin 15) :
    val_main_v43 (F := Ideal) x0 x1 (ix2 c b) = corrAt x0 x1 c b := by
  have hi : idx_main_v42 (idx_main_v43 (ix2 c b)) = ix1 (segAt c b) := by
    funext a; match a with | ⟨0, _⟩ => rfl
  rw [val_main_v43_apply, val_main_v42_apply, hi]
  unfold val_main_v41
  exact table_entry x0 _ _ _ (fun n c' => ind (hit (x1 (ix1 n)) (BitVec.ofNat 32 c'.val)))
    zero39_entry (idx40_entry x0) (hit_entry x1) c b _ rfl

/-! ## The three tables and the result -/

theorem counts_eq (x0 : FVec Ideal SX .f32) : val_main_v24 (F := Ideal) x0 = counts x0 := by
  funext j
  obtain ⟨c, b, rfl⟩ : ∃ (c : Fin 1000) (b : Fin 15), j = ix2 c b := ⟨j 0, j 1, eq_ix2 j⟩
  exact counts_entry x0 c b

theorem confs_eq (x0 : FVec Ideal SX .f32) : val_main_v30 (F := Ideal) x0 = confs x0 := by
  funext j
  obtain ⟨c, b, rfl⟩ : ∃ (c : Fin 1000) (b : Fin 15), j = ix2 c b := ⟨j 0, j 1, eq_ix2 j⟩
  exact confs_entry x0 c b

theorem corrs_eq (x0 : FVec Ideal SX .f32) (x1 : IVec SLbl 32) :
    val_main_v43 (F := Ideal) x0 x1 = corrs x0 x1 := by
  funext j
  obtain ⟨c, b, rfl⟩ : ∃ (c : Fin 1000) (b : Fin 15), j = ix2 c b := ⟨j 0, j 1, eq_ix2 j⟩
  exact corrs_entry x0 x1 c b

/-- THE REFERENCE'S RESULT: the closing arithmetic on the three histograms of the specification. -/
theorem result_eq (x0 : FVec Ideal Cert.Ece.SX .f32) (x1 : IVec Cert.Ece.SLbl 32)
    (hb : Cert.Ece.S0.BroadcastsInDim Cert.Ece.SH (![] : Fin 0 → Fin Cert.Ece.SH.rank)) (hr1 : Cert.Ece.SH.ReducesTo [1] Cert.Ece.SC)
    (hr0 : Cert.Ece.SC.ReducesTo [0] Cert.Ece.S0) (h0 : 0 < Cert.Ece.S0.numel) :
    Cert.ReferenceIdeal.ReadP.val_main_v58 (F := Ideal) x0 x1
      = Cert.Ece.tail (Cert.Ece.counts x0) (Cert.Ece.confs x0) (Cert.Ece.corrs x0 x1) hb hr1 hr0 h0 := by
  rw [result_eq_tail x0 x1 hb hr1 hr0 h0, counts_eq, confs_eq, corrs_eq]

end Cert.RefRead

end
-- ==== Proof.LibColumnSum.lean ====
/-
  The sum of a two-axis array along its FIRST axis, read at an entry: over the extended reals, started from the zero
  word, the sum of an `[a, b]` array over its rows is at column `j` the sum over the rows `k` of the entries
  `(k, j)`.  It holds for any extents; with `b = 1` it is the total of a one-column array.
-/
import Idealize.ShloMosaic.Lib.ValueIdx
import Idealize.ShloMosaic.PureOps.Ideal.Laws

noncomputable section

open scoped BigOperators

namespace Cert.LibColumnSum

open Idealize.ShloMosaic Idealize.ShloMosaic.ValueIdx

/-- Over the extended reals, the sum of an `[a, b]` array along its first axis, started from the zero word, is at
    column `j` the sum over the rows `k` of the entries `(k, j)`. -/
theorem multiReduction_add_cols_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext ax
  apply Fin.ext
  match ax with
  | ⟨0, _⟩ => rfl
  | ⟨1, _⟩ => rfl

end Cert.LibColumnSum

end
-- ==== Proof.KRow.lean ====
/-
  One grid point of the kernel, row by row.  For each bin b the body adds, to row b of each of its three
  [1, 15, 1000] accumulator blocks, a sum over the 400 rows r of the point's [400, 1000] tile X of confidences:
  the indicator that X(r, c) is counted in bin b; that indicator times X(r, c); that indicator times the indicator
  that row r's label is c.  Here: the indicator array (`maskv`), a row's new contents from its old contents and the
  array summed (`rowOf`), and both read at an entry over the extended reals.
-/
import proofs.«164000_j20916490731796_1_alg».proof.Proof.Gen.KernelIdeal.Skeleton
import proofs.«164000_j20916490731796_1_alg».proof.Proof.Spec
import proofs.«164000_j20916490731796_1_alg».proof.Proof.LibColumnSum
import Idealize.ShloMosaic.Lib.Pipeline.Value
import Idealize.ShloMosaic.Lib.ValueIdx

noncomputable section

open scoped BigOperators

namespace Cert.KernelIdeal.Pt

open Cert.KernelIdeal Cert.KernelIdeal.Gen Idealize.ShloMosaic Idealize.ShloMosaic.ValueIdx

variable {F : FTy → Type} [FloatOps F]

/-- The indicator array of bin `b` over a tile: 1 where the tile's entry is counted in bin `b`, 0 elsewhere. -/
def maskv (b : BitVec 32) (X : Vec F S400x1000 .f32) : FVec F S400x1000 .f32 :=
  sitofp .f32 (extui 32 (andi (k0_pay6 X) (cmpi .eq (k0_pay5 X) (broadcast S400x1000 b))) natLt_1_32)

/-- A row's new contents: its old contents plus the sum of `v` down the tile's 400 rows. -/
def rowOf (prev : Vec F S1x1x1000 .f32) (v : FVec F S400x1000 .f32) : FVec F S1x1x1000 .f32 :=
  shapeCast S1x1x1000 (addf (shapeCast S1000 prev shapeCasts_S1x1x1000_S1000)
    (multiReduction .add [0] S1000 v 0x00000000#32 reduces_S400x1000_S1000 (.inl rfl) rfl)) shapeCasts_S1000_S1x1x1000

/-! ## Read at an entry, over the extended reals -/

theorem binv_apply (X : Vec Ideal S400x1000 .f32) (i : S400x1000.Idx) : k0_pay5 X i = Cert.Ece.binOf (X i) := rfl

theorem validv_apply (X : Vec Ideal S400x1000 .f32) (i : S400x1000.Idx) : k0_pay6 X i = Cert.Ece.valid (X i) := rfl

/-- The indicator array at an entry is the indicator of the entry. -/
theorem maskv_apply (b : BitVec 32) (X : Vec Ideal S400x1000 .f32) (i : S400x1000.Idx) :
    maskv b X i = Cert.Ece.ind (Cert.Ece.inBin (X i) b) :=
  Cert.Ece.sitofp_setWidth (Cert.Ece.inBin (X i) b)

/-- The label indicator array at (r, c): 1 when row r's label is c. -/
theorem hitv_apply (L : Vec Ideal S400x1 .i32) (r : Fin 400) (c : Fin 1000) :
    k0_pay7 (F := Ideal) L (ix2 r c) = Cert.Ece.ind (Cert.Ece.hit (L (ix2 r (0 : Fin 1))) (BitVec.ofNat 32 c.val)) := by
  unfold k0_pay7
  show FloatOps.sitofp (F := Ideal) .f32 ((IntOp.cmpi .eq
      (broadcastTo S400x1000 (shapeCast S400x1 L shapeCasts_S400x1_S400x1) broadcasts_S400x1_S400x1000 (ix2 r c))
      (iota .tc S400x1000 32 [1] iota_S400x1000_d1_w32 (ix2 r c))).setWidth 32) = _
  rw [Cert.Ece.sitofp_setWidth, shapeCast_self, iota_single_apply,
    broadcastTo_apply L broadcasts_S400x1_S400x1000 (ix2 r c) (ix2 r (0 : Fin 1)) (fun a => by
      match a with
      | ⟨0, _⟩ => rfl
      | ⟨1, _⟩ => rfl)]
  rfl

/-- A row's new contents at column c: the old entry plus the sum of `v` down column c. -/
theorem rowOf_apply (prev : Vec Ideal S1x1x1000 .f32) (v : FVec Ideal S400x1000 .f32) (p q : Fin 1) (c : Fin 1000) :
    rowOf prev v (ix3 p q c) = prev (ix3 p q c) + ∑ r : Fin 400, v (ix2 r c) := by
  unfold rowOf
  have hp : p.val = 0 := by omega
  have hq : q.val = 0 := by omega
  rw [shapeCast_apply _ shapeCasts_S1000_S1x1x1000 (ix3 p q c) (ix1 c) (by
    rw [Shape.rowMajor_val_one, Shape.rowMajor_val_three]
    show c.val = (p.val * 1 + q.val) * 1000 + c.val
    rw [hp, hq]; omega)]
  rw [addf_apply]
  refine congrArg₂ (· + ·) ?_ ?_
  · exact shapeCast_apply _ shapeCasts_S1x1x1000_S1000 (ix1 c) (ix3 p q c) (by
      rw [Shape.rowMajor_val_one, Shape.rowMajor_val_three]
      show (p.val * 1 + q.val) * 1000 + c.val = c.val
      rw [hp, hq]; omega)
  · exact Cert.LibColumnSum.multiReduction_add_cols_apply v reduces_S400x1000_S1000 (.inl rfl) rfl c

end Cert.KernelIdeal.Pt

end
-- ==== Proof.KPoint.lean ====
/-
  One grid point of the kernel, block by block.  A point holds a [400, 1000] tile X of confidences and the labels L
  of its 400 rows; each of its three [1, 15, 1000] accumulator blocks is written row by row, row b receiving its old
  contents plus the sum down the tile's rows of an array u(b) — the bin-b indicator, that indicator times X, that
  indicator times the label indicator.  So after the point a block is, entry by entry, its contents before the point
  (zero at the first point of a shard) plus those column sums: `blockOf`.
-/
import proofs.«164000_j20916490731796_1_alg».proof.Proof.Gen.KernelIdeal.Frame
import proofs.«164000_j20916490731796_1_alg».proof.Proof.KRow
import Idealize.ShloMosaic.Lib.Tactic

set_option maxRecDepth 16384

noncomputable section

open scoped BigOperators

namespace Cert.KernelIdeal.Pt

open Cert.KernelIdeal Cert.KernelIdeal.Gen Idealize.ShloMosaic Idealize.ShloMosaic.ValueIdx Idealize.ShloMosaic.Tactic
open Idealize.SL Idealize.SL.Sem

/-- A block after a point: its contents before, plus, at row b and column c, the sum of u(b) down column c. -/
def blockOf (prev : Vec Ideal S1x15x1000 .f32) (u : BitVec 32 → FVec Ideal S400x1000 .f32) : Vec Ideal S1x15x1000 .f32 :=
  fun y => prev y + ∑ r : Fin 400, u (BitVec.ofNat 32 (y 1).val) (ix2 r (⟨(y 2).val, (y 2).isLt⟩ : Fin 1000))

theorem hz2 : (![0, 0] : Fin 2 → Nat) = fun _ => 0 := funext fun a => by fin_cases a <;> rfl

/-- Row b's store leaves the block's row b: the old row plus the column sums of u(b). -/
theorem piece_ok (b : Nat) (hb : b < 15) (inb : ∀ a, (![0, b, 0] : Fin 3 → Nat) a + (![1, 1, 1000] : Fin 3 → Nat) a ≤ S1x15x1000.size a)
    (prev : Vec Ideal S1x15x1000 .f32) (u : BitVec 32 → FVec Ideal S400x1000 .f32)
    (x : (Rect.unit (s := S1x15x1000) ![0, b, 0] ![1, 1, 1000] inb).shape.Idx) :
    rowOf (View.ld prev (Rect.unit (s := S1x15x1000) ![0, b, 0] ![1, 1, 1000] inb)) (u (BitVec.ofNat 32 b)) x
      = blockOf prev u ((Rect.unit (s := S1x15x1000) ![0, b, 0] ![1, 1, 1000] inb).emb x) := by
  obtain ⟨p, q, cc, rfl⟩ : ∃ (p q : Fin 1) (cc : Fin 1000), x = ix3 p q cc := ⟨x 0, x 1, x 2, eq_ix3 x⟩
  rw [rowOf_apply]
  have hq : q.val = 0 := by omega
  unfold blockOf
  refine congrArg₂ (· + ·) rfl ?_
  have e1 : (((Rect.unit (s := S1x15x1000) ![0, b, 0] ![1, 1, 1000] inb).emb (ix3 p q cc)) 1).val = b := by
    show b + 1 * q.val = b
    omega
  have e2 : (((Rect.unit (s := S1x15x1000) ![0, b, 0] ![1, 1, 1000] inb).emb (ix3 p q cc)) 2).val = cc.val := by
    show 0 + 1 * cc.val = cc.val
    omega
  refine Finset.sum_congr rfl fun r _ => ?_
  rw [e1]
  exact congrArg (u (BitVec.ofNat 32 b)) (congrArg (ix2 r) (Fin.ext e2.symm))

/-- Case B, the counts block. -/
theorem out_B_2 (c : Dev nD) (i : grid0.Coords) (arg2 : Memref sig .tc .vmem S400x1000 .f32) (harg2 : arg2.IsWhole) (arg3 : Memref sig .tc .vmem S400x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (hc0 : ¬cond0_0 i)
    (x0 : Vec Ideal S400x1000 .f32) (x1 : Vec Ideal S400x1 .i32) (xo2 : Vec Ideal S1x15x1000 .f32) (xo3 : Vec Ideal S1x15x1000 .f32) (xo4 : Vec Ideal S1x15x1000 .f32) :
    out0_B_2 c i arg2 harg2 arg3 harg3 arg4 harg4 arg5 harg5 arg6 harg6 hc0 x0 x1 xo2 xo3 xo4 = blockOf xo2 (fun b => maskv b x0) := by
  unfold out0_B_2
  rw [View.read_writes_eq_canon _ _ _ (cover0_B_2 c i arg2 harg2 arg3 harg3 arg4 harg4 arg5 harg5 arg6 harg6 hc0 x0 x1 xo2 xo3 xo4)]
  funext y
  refine View.canon_apply_of_pieces (blockOf xo2 (fun b => maskv b x0)) _ ?_ y (cover0_B_2 c i arg2 harg2 arg3 harg3 arg4 harg4 arg5 harg5 arg6 harg6 hc0 x0 x1 xo2 xo3 xo4 y)
  unfold kernelRun0_B
  dsimp only
  sl_unfold_words
  simp only [View.readAt_eq_ld, harg2.read_unread, harg3.read_unread, harg4.read_unread,
    View.ld_unit_zero (S := S400x1000) hz2, View.ld_unit_zero (S := S400x1) hz2]
  intro p hp
  simp only [List.mem_cons, List.mem_nil_iff, or_false] at hp
  rcases hp with rfl | rfl | rfl | rfl | rfl | rfl | rfl | rfl | rfl | rfl | rfl | rfl | rfl | rfl | rfl
  · exact fun x => piece_ok 14 (by decide) _ xo2 (fun b => maskv b x0) x
  · exact fun x => piece_ok 13 (by decide) _ xo2 (fun b => maskv b x0) x
  · exact fun x => piece_ok 12 (by decide) _ xo2 (fun b => maskv b x0) x
  · exact fun x => piece_ok 11 (by decide) _ xo2 (fun b => maskv b x0) x
  · exact fun x => piece_ok 10 (by decide) _ xo2 (fun b => maskv b x0) x
  · exact fun x => piece_ok 9 (by decide) _ xo2 (fun b => maskv b x0) x
  · exact fun x => piece_ok 8 (by decide) _ xo2 (fun b => maskv b x0) x
  · exact fun x => piece_ok 7 (by decide) _ xo2 (fun b => maskv b x0) x
  · exact fun x => piece_ok 6 (by decide) _ xo2 (fun b => maskv b x0) x
  · exact fun x => piece_ok 5 (by decide) _ xo2 (fun b => maskv b x0) x
  · exact fun x => piece_ok 4 (by decide) _ xo2 (fun b => maskv b x0) x
  · exact fun x => piece_ok 3 (by decide) _ xo2 (fun b => maskv b x0) x
  · exact fun x => piece_ok 2 (by decide) _ xo2 (fun b => maskv b x0) x
  · exact fun x => piece_ok 1 (by decide) _ xo2 (fun b => maskv b x0) x
  · exact fun x => piece_ok 0 (by decide) _ xo2 (fun b => maskv b x0) x

/-- Case B, the confidence-sum block. -/
theorem out_B_3 (c : Dev nD) (i : grid0.Coords) (arg2 : Memref sig .tc .vmem S400x1000 .f32) (harg2 : arg2.IsWhole) (arg3 : Memref sig .tc .vmem S400x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (hc0 : ¬cond0_0 i)
    (x0 : Vec Ideal S400x1000 .f32) (x1 : Vec Ideal S400x1 .i32) (xo2 : Vec Ideal S1x15x1000 .f32) (xo3 : Vec Ideal S1x15x1000 .f32) (xo4 : Vec Ideal S1x15x1000 .f32) :
    out0_B_3 c i arg2 harg2 arg3 harg3 arg4 harg4 arg5 harg5 arg6 harg6 hc0 x0 x1 xo2 xo3 xo4 = blockOf xo3 (fun b => mulf (maskv b x0) x0) := by
  unfold out0_B_3
  rw [View.read_writes_eq_canon _ _ _ (cover0_B_3 c i arg2 harg2 arg3 harg3 arg4 harg4 arg5 harg5 arg6 harg6 hc0 x0 x1 xo2 xo3 xo4)]
  funext y
  refine View.canon_apply_of_pieces (blockOf xo3 (fun b => mulf (maskv b x0) x0)) _ ?_ y (cover0_B_3 c i arg2 harg2 arg3 harg3 arg4 harg4 arg5 harg5 arg6 harg6 hc0 x0 x1 xo2 xo3 xo4 y)
  unfold kernelRun0_B
  dsimp only
  sl_unfold_words
  simp only [View.readAt_eq_ld, harg2.read_unread, harg3.read_unread, harg5.read_unread,
    View.ld_unit_zero (S := S400x1000) hz2, View.ld_unit_zero (S := S400x1) hz2]
  intro p hp
  simp only [List.mem_cons, List.mem_nil_iff, or_false] at hp
  rcases hp with rfl | rfl | rfl | rfl | rfl | rfl | rfl | rfl | rfl | rfl | rfl | rfl | rfl | rfl | rfl
  · exact fun x => piece_ok 14 (by decide) _ xo3 (fun b => mulf (maskv b x0) x0) x
  · exact fun x => piece_ok 13 (by decide) _ xo3 (fun b => mulf (maskv b x0) x0) x
  · exact fun x => piece_ok 12 (by decide) _ xo3 (fun b => mulf (maskv b x0) x0) x
  · exact fun x => piece_ok 11 (by decide) _ xo3 (fun b => mulf (maskv b x0) x0) x
  · exact fun x => piece_ok 10 (by decide) _ xo3 (fun b => mulf (maskv b x0) x0) x
  · exact fun x => piece_ok 9 (by decide) _ xo3 (fun b => mulf (maskv b x0) x0) x
  · exact fun x => piece_ok 8 (by decide) _ xo3 (fun b => mulf (maskv b x0) x0) x
  · exact fun x => piece_ok 7 (by decide) _ xo3 (fun b => mulf (maskv b x0) x0) x
  · exact fun x => piece_ok 6 (by decide) _ xo3 (fun b => mulf (maskv b x0) x0) x
  · exact fun x => piece_ok 5 (by decide) _ xo3 (fun b => mulf (maskv b x0) x0) x
  · exact fun x => piece_ok 4 (by decide) _ xo3 (fun b => mulf (maskv b x0) x0) x
  · exact fun x => piece_ok 3 (by decide) _ xo3 (fun b => mulf (maskv b x0) x0) x
  · exact fun x => piece_ok 2 (by decide) _ xo3 (fun b => mulf (maskv b x0) x0) x
  · exact fun x => piece_ok 1 (by decide) _ xo3 (fun b => mulf (maskv b x0) x0) x
  · exact fun x => piece_ok 0 (by decide) _ xo3 (fun b => mulf (maskv b x0) x0) x

/-- Case B, the correct-label block. -/
theorem out_B_4 (c : Dev nD) (i : grid0.Coords) (arg2 : Memref sig .tc .vmem S400x1000 .f32) (harg2 : arg2.IsWhole) (arg3 : Memref sig .tc .vmem S400x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (hc0 : ¬cond0_0 i)
    (x0 : Vec Ideal S400x1000 .f32) (x1 : Vec Ideal S400x1 .i32) (xo2 : Vec Ideal S1x15x1000 .f32) (xo3 : Vec Ideal S1x15x1000 .f32) (xo4 : Vec Ideal S1x15x1000 .f32) :
    out0_B_4 c i arg2 harg2 arg3 harg3 arg4 harg4 arg5 harg5 arg6 harg6 hc0 x0 x1 xo2 xo3 xo4 = blockOf xo4 (fun b => mulf (maskv b x0) (k0_pay7 x1)) := by
  unfold out0_B_4
  rw [View.read_writes_eq_canon _ _ _ (cover0_B_4 c i arg2 harg2 arg3 harg3 arg4 harg4 arg5 harg5 arg6 harg6 hc0 x0 x1 xo2 xo3 xo4)]
  funext y
  refine View.canon_apply_of_pieces (blockOf xo4 (fun b => mulf (maskv b x0) (k0_pay7 x1))) _ ?_ y (cover0_B_4 c i arg2 harg2 arg3 harg3 arg4 harg4 arg5 harg5 arg6 harg6 hc0 x0 x1 xo2 xo3 xo4 y)
  unfold kernelRun0_B
  dsimp only
  sl_unfold_words
  simp only [View.readAt_eq_ld, harg2.read_unread, harg3.read_unread, harg6.read_unread,
    View.ld_unit_zero (S := S400x1000) hz2, View.ld_unit_zero (S := S400x1) hz2]
  intro p hp
  simp only [List.mem_cons, List.mem_nil_iff, or_false] at hp
  rcases hp with rfl | rfl | rfl | rfl | rfl | rfl | rfl | rfl | rfl | rfl | rfl | rfl | rfl | rfl | rfl
  · exact fun x => piece_ok 14 (by decide) _ xo4 (fun b => mulf (maskv b x0) (k0_pay7 x1)) x
  · exact fun x => piece_ok 13 (by decide) _ xo4 (fun b => mulf (maskv b x0) (k0_pay7 x1)) x
  · exact fun x => piece_ok 12 (by decide) _ xo4 (fun b => mulf (maskv b x0) (k0_pay7 x1)) x
  · exact fun x => piece_ok 11 (by decide) _ xo4 (fun b => mulf (maskv b x0) (k0_pay7 x1)) x
  · exact fun x => piece_ok 10 (by decide) _ xo4 (fun b => mulf (maskv b x0) (k0_pay7 x1)) x
  · exact fun x => piece_ok 9 (by decide) _ xo4 (fun b => mulf (maskv b x0) (k0_pay7 x1)) x
  · exact fun x => piece_ok 8 (by decide) _ xo4 (fun b => mulf (maskv b x0) (k0_pay7 x1)) x
  · exact fun x => piece_ok 7 (by decide) _ xo4 (fun b => mulf (maskv b x0) (k0_pay7 x1)) x
  · exact fun x => piece_ok 6 (by decide) _ xo4 (fun b => mulf (maskv b x0) (k0_pay7 x1)) x
  · exact fun x => piece_ok 5 (by decide) _ xo4 (fun b => mulf (maskv b x0) (k0_pay7 x1)) x
  · exact fun x => piece_ok 4 (by decide) _ xo4 (fun b => mulf (maskv b x0) (k0_pay7 x1)) x
  · exact fun x => piece_ok 3 (by decide) _ xo4 (fun b => mulf (maskv b x0) (k0_pay7 x1)) x
  · exact fun x => piece_ok 2 (by decide) _ xo4 (fun b => mulf (maskv b x0) (k0_pay7 x1)) x
  · exact fun x => piece_ok 1 (by decide) _ xo4 (fun b => mulf (maskv b x0) (k0_pay7 x1)) x
  · exact fun x => piece_ok 0 (by decide) _ xo4 (fun b => mulf (maskv b x0) (k0_pay7 x1)) x

/-! ## The first point of a shard: the blocks are zeroed, then the rows are added -/

theorem hz3 : (![0, 0, 0] : Fin 3 → Nat) = fun _ => 0 := funext fun a => by fin_cases a <;> rfl

section Pieces
variable {Val : EltTy → Type} [∀ e, Nonempty (Val e)] {S : Shape} {e : EltTy}

/-- A load after ONE store of the whole buffer reads that store's payload at the load's indices. -/
theorem readCov_whole {sig : RefSig} {κ : Kind} {sp : Space} (v : View sig κ sp S e) {off : Fin S.rank → Nat}
    (h : off = fun _ => 0) (inb : ∀ a, off a + S.size a ≤ S.size a) (w : S.Idx → Val e) (B : LoadRect S) :
    v.readCov [(⟨Rect.unit off S.size inb, w⟩ : View.Piece Val S e)] B = fun j => w (B.idx j) := by
  rw [View.readCov_eq_canon']
  funext j
  rw [View.canon_unit_zero h]

/-- Where the later stores already cover an index, the first store of the list does not matter. -/
theorem canon_dropLast : ∀ (L : List (View.Piece Val S e)) (y : S.Idx), (∃ p ∈ L.dropLast, y ∈ p.1.set) →
    View.canon L y = View.canon L.dropLast y
  | [], _, hc => by obtain ⟨p, hp, _⟩ := hc; simp at hp
  | [_], _, hc => by obtain ⟨p, hp, _⟩ := hc; simp at hp
  | a :: b :: l, y, hc => by
    rw [List.dropLast_cons₂]
    by_cases hm : y ∈ a.1.set
    · obtain ⟨r, w⟩ := a
      obtain ⟨x, rfl⟩ := r.exists_idx_of_mem hm
      rw [show r.idx x = r.emb x from rfl, View.canon_cons_emb, View.canon_cons_emb]
    · rw [View.canon_cons_of_not_mem _ _ hm, View.canon_cons_of_not_mem _ _ hm]
      refine canon_dropLast (b :: l) y ?_
      obtain ⟨p, hp, hy⟩ := hc
      rw [List.dropLast_cons₂] at hp
      rcases List.mem_cons.mp hp with rfl | hp'
      · exact absurd hy hm
      · exact ⟨p, hp', hy⟩

end Pieces

/-- An index of the block lies in row b's rectangle exactly when its row is b. -/
theorem row_mem_iff (y : S1x15x1000.Idx) (b : Nat)
    (inb : ∀ a, (![0, b, 0] : Fin 3 → Nat) a + (![1, 1, 1000] : Fin 3 → Nat) a ≤ S1x15x1000.size a) :
    y ∈ (Rect.unit (s := S1x15x1000) ![0, b, 0] ![1, 1, 1000] inb).set ↔ (y 1).val = b := by
  rw [Rect.mem_set_unit]
  constructor
  · intro h
    have h1 := h 1
    have : b ≤ (y 1).val ∧ (y 1).val < b + 1 := h1
    omega
  · intro h a
    have h0 : (y 0).val < 1 := (y 0).isLt
    have h2 : (y 2).val < 1000 := (y 2).isLt
    match a with
    | ⟨0, _⟩ => exact (show 0 ≤ (y 0).val ∧ (y 0).val < 0 + 1 by omega)
    | ⟨1, _⟩ => exact (show b ≤ (y 1).val ∧ (y 1).val < b + 1 by omega)
    | ⟨2, _⟩ => exact (show 0 ≤ (y 2).val ∧ (y 2).val < 0 + 1000 by omega)

/-- The zero blocks the first point stores. -/
theorem zero2 : (k0_pay2 (F := Ideal) : FVec Ideal S1x15x1000 .f32) = fun _ => 0 := by
  unfold k0_pay2; funext y; exact Ideal.ofBits_zero_f32
theorem zero3 : (k0_pay3 (F := Ideal) : FVec Ideal S1x15x1000 .f32) = fun _ => 0 := by
  unfold k0_pay3; funext y; exact Ideal.ofBits_zero_f32
theorem zero4 : (k0_pay4 (F := Ideal) : FVec Ideal S1x15x1000 .f32) = fun _ => 0 := by
  unfold k0_pay4; funext y; exact Ideal.ofBits_zero_f32

/-- Case A (the first point of a shard), the counts block: the zeroed block plus the point's column sums. -/
theorem out_A_2 (c : Dev nD) (i : grid0.Coords) (arg2 : Memref sig .tc .vmem S400x1000 .f32) (harg2 : arg2.IsWhole) (arg3 : Memref sig .tc .vmem S400x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (hc0 : cond0_0 i)
    (x0 : Vec Ideal S400x1000 .f32) (x1 : Vec Ideal S400x1 .i32) :
    out0_A_2 c i arg2 harg2 arg3 harg3 arg4 harg4 arg5 harg5 arg6 harg6 hc0 x0 x1 = blockOf (fun _ => 0) (fun b => maskv b x0) := by
  rw [← zero2]
  unfold out0_A_2
  rw [View.read_writes_eq_canon _ _ _ (cover0_A_2 c i arg2 harg2 arg3 harg3 arg4 harg4 arg5 harg5 arg6 harg6 hc0 x0 x1)]
  funext y
  unfold kernelRun0_A
  dsimp only
  sl_unfold_words
  simp (disch := (refine Rect.unit_disjoint (1 : Fin 3) ?_; decide)) only [View.readAt_eq_ld, harg2.read_unread, harg3.read_unread,
    View.ld_unit_zero (S := S400x1000) hz2, View.ld_unit_zero (S := S400x1) hz2, View.readCov_cons_of_disjoint,
    readCov_whole (S := S1x15x1000) _ hz3]
  have hy : (y 1).val < 15 := (y 1).isLt
  refine (canon_dropLast _ y ?_).trans (View.canon_apply_of_pieces (blockOf (k0_pay2 (F := Ideal)) (fun b => maskv b x0)) _ ?_ y ?_)
  · simp only [List.dropLast, List.mem_cons, List.mem_nil_iff, or_false, exists_eq_or_imp, exists_eq_left, row_mem_iff]
    omega
  · simp only [List.dropLast]
    intro p hp
    simp only [List.mem_cons, List.mem_nil_iff, or_false] at hp
    rcases hp with rfl | rfl | rfl | rfl | rfl | rfl | rfl | rfl | rfl | rfl | rfl | rfl | rfl | rfl | rfl
    · exact fun x => piece_ok 14 (by decide) _ (k0_pay2 (F := Ideal)) (fun b => maskv b x0) x
    · exact fun x => piece_ok 13 (by decide) _ (k0_pay2 (F := Ideal)) (fun b => maskv b x0) x
    · exact fun x => piece_ok 12 (by decide) _ (k0_pay2 (F := Ideal)) (fun b => maskv b x0) x
    · exact fun x => piece_ok 11 (by decide) _ (k0_pay2 (F := Ideal)) (fun b => maskv b x0) x
    · exact fun x => piece_ok 10 (by decide) _ (k0_pay2 (F := Ideal)) (fun b => maskv b x0) x
    · exact fun x => piece_ok 9 (by decide) _ (k0_pay2 (F := Ideal)) (fun b => maskv b x0) x
    · exact fun x => piece_ok 8 (by decide) _ (k0_pay2 (F := Ideal)) (fun b => maskv b x0) x
    · exact fun x => piece_ok 7 (by decide) _ (k0_pay2 (F := Ideal)) (fun b => maskv b x0) x
    · exact fun x => piece_ok 6 (by decide) _ (k0_pay2 (F := Ideal)) (fun b => maskv b x0) x
    · exact fun x => piece_ok 5 (by decide) _ (k0_pay2 (F := Ideal)) (fun b => maskv b x0) x
    · exact fun x => piece_ok 4 (by decide) _ (k0_pay2 (F := Ideal)) (fun b => maskv b x0) x
    · exact fun x => piece_ok 3 (by decide) _ (k0_pay2 (F := Ideal)) (fun b => maskv b x0) x
    · exact fun x => piece_ok 2 (by decide) _ (k0_pay2 (F := Ideal)) (fun b => maskv b x0) x
    · exact fun x => piece_ok 1 (by decide) _ (k0_pay2 (F := Ideal)) (fun b => maskv b x0) x
    · exact fun x => piece_ok 0 (by decide) _ (k0_pay2 (F := Ideal)) (fun b => maskv b x0) x
  · simp only [List.dropLast, List.mem_cons, List.mem_nil_iff, or_false, exists_eq_or_imp, exists_eq_left, row_mem_iff]
    omega

/-- Case A (the first point of a shard), the confidence-sum block: the zeroed block plus the point's column sums. -/
theorem out_A_3 (c : Dev nD) (i : grid0.Coords) (arg2 : Memref sig .tc .vmem S400x1000 .f32) (harg2 : arg2.IsWhole) (arg3 : Memref sig .tc .vmem S400x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (hc0 : cond0_0 i)
    (x0 : Vec Ideal S400x1000 .f32) (x1 : Vec Ideal S400x1 .i32) :
    out0_A_3 c i arg2 harg2 arg3 harg3 arg4 harg4 arg5 harg5 arg6 harg6 hc0 x0 x1 = blockOf (fun _ => 0) (fun b => mulf (maskv b x0) x0) := by
  rw [← zero3]
  unfold out0_A_3
  rw [View.read_writes_eq_canon _ _ _ (cover0_A_3 c i arg2 harg2 arg3 harg3 arg4 harg4 arg5 harg5 arg6 harg6 hc0 x0 x1)]
  funext y
  unfold kernelRun0_A
  dsimp only
  sl_unfold_words
  simp (disch := (refine Rect.unit_disjoint (1 : Fin 3) ?_; decide)) only [View.readAt_eq_ld, harg2.read_unread, harg3.read_unread,
    View.ld_unit_zero (S := S400x1000) hz2, View.ld_unit_zero (S := S400x1) hz2, View.readCov_cons_of_disjoint,
    readCov_whole (S := S1x15x1000) _ hz3]
  have hy : (y 1).val < 15 := (y 1).isLt
  refine (canon_dropLast _ y ?_).trans (View.canon_apply_of_pieces (blockOf (k0_pay3 (F := Ideal)) (fun b => mulf (maskv b x0) x0)) _ ?_ y ?_)
  · simp only [List.dropLast, List.mem_cons, List.mem_nil_iff, or_false, exists_eq_or_imp, exists_eq_left, row_mem_iff]
    omega
  · simp only [List.dropLast]
    intro p hp
    simp only [List.mem_cons, List.mem_nil_iff, or_false] at hp
    rcases hp with rfl | rfl | rfl | rfl | rfl | rfl | rfl | rfl | rfl | rfl | rfl | rfl | rfl | rfl | rfl
    · exact fun x => piece_ok 14 (by decide) _ (k0_pay3 (F := Ideal)) (fun b => mulf (maskv b x0) x0) x
    · exact fun x => piece_ok 13 (by decide) _ (k0_pay3 (F := Ideal)) (fun b => mulf (maskv b x0) x0) x
    · exact fun x => piece_ok 12 (by decide) _ (k0_pay3 (F := Ideal)) (fun b => mulf (maskv b x0) x0) x
    · exact fun x => piece_ok 11 (by decide) _ (k0_pay3 (F := Ideal)) (fun b => mulf (maskv b x0) x0) x
    · exact fun x => piece_ok 10 (by decide) _ (k0_pay3 (F := Ideal)) (fun b => mulf (maskv b x0) x0) x
    · exact fun x => piece_ok 9 (by decide) _ (k0_pay3 (F := Ideal)) (fun b => mulf (maskv b x0) x0) x
    · exact fun x => piece_ok 8 (by decide) _ (k0_pay3 (F := Ideal)) (fun b => mulf (maskv b x0) x0) x
    · exact fun x => piece_ok 7 (by decide) _ (k0_pay3 (F := Ideal)) (fun b => mulf (maskv b x0) x0) x
    · exact fun x => piece_ok 6 (by decide) _ (k0_pay3 (F := Ideal)) (fun b => mulf (maskv b x0) x0) x
    · exact fun x => piece_ok 5 (by decide) _ (k0_pay3 (F := Ideal)) (fun b => mulf (maskv b x0) x0) x
    · exact fun x => piece_ok 4 (by decide) _ (k0_pay3 (F := Ideal)) (fun b => mulf (maskv b x0) x0) x
    · exact fun x => piece_ok 3 (by decide) _ (k0_pay3 (F := Ideal)) (fun b => mulf (maskv b x0) x0) x
    · exact fun x => piece_ok 2 (by decide) _ (k0_pay3 (F := Ideal)) (fun b => mulf (maskv b x0) x0) x
    · exact fun x => piece_ok 1 (by decide) _ (k0_pay3 (F := Ideal)) (fun b => mulf (maskv b x0) x0) x
    · exact fun x => piece_ok 0 (by decide) _ (k0_pay3 (F := Ideal)) (fun b => mulf (maskv b x0) x0) x
  · simp only [List.dropLast, List.mem_cons, List.mem_nil_iff, or_false, exists_eq_or_imp, exists_eq_left, row_mem_iff]
    omega

/-- Case A (the first point of a shard), the correct-label block: the zeroed block plus the point's column sums. -/
theorem out_A_4 (c : Dev nD) (i : grid0.Coords) (arg2 : Memref sig .tc .vmem S400x1000 .f32) (harg2 : arg2.IsWhole) (arg3 : Memref sig .tc .vmem S400x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (hc0 : cond0_0 i)
    (x0 : Vec Ideal S400x1000 .f32) (x1 : Vec Ideal S400x1 .i32) :
    out0_A_4 c i arg2 harg2 arg3 harg3 arg4 harg4 arg5 harg5 arg6 harg6 hc0 x0 x1 = blockOf (fun _ => 0) (fun b => mulf (maskv b x0) (k0_pay7 x1)) := by
  rw [← zero4]
  unfold out0_A_4
  rw [View.read_writes_eq_canon _ _ _ (cover0_A_4 c i arg2 harg2 arg3 harg3 arg4 harg4 arg5 harg5 arg6 harg6 hc0 x0 x1)]
  funext y
  unfold kernelRun0_A
  dsimp only
  sl_unfold_words
  simp (disch := (refine Rect.unit_disjoint (1 : Fin 3) ?_; decide)) only [View.readAt_eq_ld, harg2.read_unread, harg3.read_unread,
    View.ld_unit_zero (S := S400x1000) hz2, View.ld_unit_zero (S := S400x1) hz2, View.readCov_cons_of_disjoint,
    readCov_whole (S := S1x15x1000) _ hz3]
  have hy : (y 1).val < 15 := (y 1).isLt
  refine (canon_dropLast _ y ?_).trans (View.canon_apply_of_pieces (blockOf (k0_pay4 (F := Ideal)) (fun b => mulf (maskv b x0) (k0_pay7 x1))) _ ?_ y ?_)
  · simp only [List.dropLast, List.mem_cons, List.mem_nil_iff, or_false, exists_eq_or_imp, exists_eq_left, row_mem_iff]
    omega
  · simp only [List.dropLast]
    intro p hp
    simp only [List.mem_cons, List.mem_nil_iff, or_false] at hp
    rcases hp with rfl | rfl | rfl | rfl | rfl | rfl | rfl | rfl | rfl | rfl | rfl | rfl | rfl | rfl | rfl
    · exact fun x => piece_ok 14 (by decide) _ (k0_pay4 (F := Ideal)) (fun b => mulf (maskv b x0) (k0_pay7 x1)) x
    · exact fun x => piece_ok 13 (by decide) _ (k0_pay4 (F := Ideal)) (fun b => mulf (maskv b x0) (k0_pay7 x1)) x
    · exact fun x => piece_ok 12 (by decide) _ (k0_pay4 (F := Ideal)) (fun b => mulf (maskv b x0) (k0_pay7 x1)) x
    · exact fun x => piece_ok 11 (by decide) _ (k0_pay4 (F := Ideal)) (fun b => mulf (maskv b x0) (k0_pay7 x1)) x
    · exact fun x => piece_ok 10 (by decide) _ (k0_pay4 (F := Ideal)) (fun b => mulf (maskv b x0) (k0_pay7 x1)) x
    · exact fun x => piece_ok 9 (by decide) _ (k0_pay4 (F := Ideal)) (fun b => mulf (maskv b x0) (k0_pay7 x1)) x
    · exact fun x => piece_ok 8 (by decide) _ (k0_pay4 (F := Ideal)) (fun b => mulf (maskv b x0) (k0_pay7 x1)) x
    · exact fun x => piece_ok 7 (by decide) _ (k0_pay4 (F := Ideal)) (fun b => mulf (maskv b x0) (k0_pay7 x1)) x
    · exact fun x => piece_ok 6 (by decide) _ (k0_pay4 (F := Ideal)) (fun b => mulf (maskv b x0) (k0_pay7 x1)) x
    · exact fun x => piece_ok 5 (by decide) _ (k0_pay4 (F := Ideal)) (fun b => mulf (maskv b x0) (k0_pay7 x1)) x
    · exact fun x => piece_ok 4 (by decide) _ (k0_pay4 (F := Ideal)) (fun b => mulf (maskv b x0) (k0_pay7 x1)) x
    · exact fun x => piece_ok 3 (by decide) _ (k0_pay4 (F := Ideal)) (fun b => mulf (maskv b x0) (k0_pay7 x1)) x
    · exact fun x => piece_ok 2 (by decide) _ (k0_pay4 (F := Ideal)) (fun b => mulf (maskv b x0) (k0_pay7 x1)) x
    · exact fun x => piece_ok 1 (by decide) _ (k0_pay4 (F := Ideal)) (fun b => mulf (maskv b x0) (k0_pay7 x1)) x
    · exact fun x => piece_ok 0 (by decide) _ (k0_pay4 (F := Ideal)) (fun b => mulf (maskv b x0) (k0_pay7 x1)) x
  · simp only [List.dropLast, List.mem_cons, List.mem_nil_iff, or_false, exists_eq_or_imp, exists_eq_left, row_mem_iff]
    omega

end Cert.KernelIdeal.Pt

end
-- ==== Proof.KAcc.lean ====
/-
  The kernel's accumulation over a shard.  The 250 grid points are two shards of 125 consecutive points; at a
  shard's first point each accumulator block is zeroed and receives that point's column sums, at every later point
  it receives that point's column sums on top of what the point before left.  So after the shard's last point a
  block holds, entry by entry, the sum over the shard's 125 points of their column sums.
-/
import proofs.«164000_j20916490731796_1_alg».proof.Proof.KPoint

set_option maxRecDepth 16384

noncomputable section

open scoped BigOperators

namespace Cert.KernelIdeal.Pt

open Cert.KernelIdeal Cert.KernelIdeal.Gen Idealize.ShloMosaic Idealize.ShloMosaic.ValueIdx Idealize.ShloMosaic.TcCoe
open Idealize.SL Idealize.SL.Sem

variable (m : (ℓ : Loc nD τ sig) → Buf (Elt Ideal) ℓ)

/-- The arrays point t sums down its tile's rows, per bin: the bin's indicator; times the confidence; times the
    label indicator. -/
def u2 (c : Dev nD) (t : Fin cfg0.N) : BitVec 32 → FVec Ideal S400x1000 .f32 := fun b => maskv b (iblk m c 0 t)
def u3 (c : Dev nD) (t : Fin cfg0.N) : BitVec 32 → FVec Ideal S400x1000 .f32 :=
  fun b => mulf (maskv b (iblk m c 0 t)) (iblk m c 0 t)
def u4 (c : Dev nD) (t : Fin cfg0.N) : BitVec 32 → FVec Ideal S400x1000 .f32 :=
  fun b => mulf (maskv b (iblk m c 0 t)) (k0_pay7 (iblk m c 1 t))

/-- A point's column sum for bin b at class cc. -/
def colsum (u : BitVec 32 → FVec Ideal S400x1000 .f32) (b : ℕ) (cc : Fin 1000) : EReal :=
  ∑ r : Fin 400, u (BitVec.ofNat 32 b) (ix2 r cc)

theorem blockOf_apply (prev : Vec Ideal S1x15x1000 .f32) (u : BitVec 32 → FVec Ideal S400x1000 .f32) (y : S1x15x1000.Idx) :
    blockOf prev u y = prev y + colsum u (y 1).val ⟨(y 2).val, (y 2).isLt⟩ := rfl

/-- Point n's column sum for bin b at class cc, as a function of every three natural numbers (zero past the grid
    or past the classes). -/
def addend (uu : Fin cfg0.N → BitVec 32 → FVec Ideal S400x1000 .f32) (n b cc : ℕ) : EReal :=
  if h : n < cfg0.N ∧ cc < 1000 then colsum (uu ⟨n, h.1⟩) b ⟨cc, h.2⟩ else 0

/-- The counts block at the first point of a shard. -/
theorem reset2 (c : Dev nD) (n : ℕ) (h : n < cfg0.N) (h0 : n % 125 = 0) :
    (outsAt0 m c n h).1 = blockOf (fun _ => 0) (u2 m c ⟨n, h⟩) := by
  rw [outsAt0_A m c ⟨n, h⟩ h0]
  dsimp only
  exact out_A_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (iblk m c 0 ⟨n, h⟩) (iblk m c 1 ⟨n, h⟩)

/-- and at a later point of the shard: what the point before left, plus this point's column sums. -/
theorem step2 (c : Dev nD) (n : ℕ) (h : n + 1 < cfg0.N) (h0 : ¬(n + 1) % 125 = 0) :
    (outsAt0 m c (n + 1) h).1 = blockOf (outsAt0 m c n (Nat.lt_of_succ_lt h)).1 (u2 m c ⟨n + 1, h⟩) := by
  rw [outsAt0_B m c ⟨n + 1, h⟩ h0]
  dsimp only
  exact out_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩)
    (outsAt0 m c n (Nat.lt_of_succ_lt h)).1 (outsAt0 m c n (Nat.lt_of_succ_lt h)).2.1 (outsAt0 m c n (Nat.lt_of_succ_lt h)).2.2

/-- So after the last point of shard q the block holds the sum of the shard's 125 points' column sums. -/
theorem acc2 (c : Dev nD) (q : ℕ) (hq : 125 * q + 124 < cfg0.N) (y : S1x15x1000.Idx) :
    (outsAt0 m c (125 * q + 124) hq).1 y = 0 + ∑ s ∈ Finset.range 125, addend (u2 m c) (125 * q + s) (y 1).val (y 2).val := by
  rw [Pipeline.eq_accAt (fun n h => (outsAt0 m c n h).1) 125 (fun n h => blockOf (fun _ => 0) (u2 m c ⟨n, h⟩))
    (fun n h acc => blockOf acc (u2 m c ⟨n, h⟩)) (reset2 m c) (step2 m c) q 124 (by decide) hq]
  exact Pipeline.accAt_add_apply (fun n h => blockOf (fun _ => 0) (u2 m c ⟨n, h⟩))
    (fun n h acc => blockOf acc (u2 m c ⟨n, h⟩)) (fun _ => 0)
    (fun n y => addend (u2 m c) n (y 1).val (y 2).val) (125 * q) 124
    (fun h i => by rw [blockOf_apply, addend, dif_pos ⟨h, (i 2).isLt⟩])
    (fun n h acc i _ _ => by rw [blockOf_apply, addend, dif_pos ⟨h, (i 2).isLt⟩]) 124 le_rfl hq y

/-- The confidence-sum block at the first point of a shard. -/
theorem reset3 (c : Dev nD) (n : ℕ) (h : n < cfg0.N) (h0 : n % 125 = 0) :
    (outsAt0 m c n h).2.1 = blockOf (fun _ => 0) (u3 m c ⟨n, h⟩) := by
  rw [outsAt0_A m c ⟨n, h⟩ h0]
  dsimp only
  exact out_A_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (iblk m c 0 ⟨n, h⟩) (iblk m c 1 ⟨n, h⟩)

/-- and at a later point of the shard: what the point before left, plus this point's column sums. -/
theorem step3 (c : Dev nD) (n : ℕ) (h : n + 1 < cfg0.N) (h0 : ¬(n + 1) % 125 = 0) :
    (outsAt0 m c (n + 1) h).2.1 = blockOf (outsAt0 m c n (Nat.lt_of_succ_lt h)).2.1 (u3 m c ⟨n + 1, h⟩) := by
  rw [outsAt0_B m c ⟨n + 1, h⟩ h0]
  dsimp only
  exact out_B_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩)
    (outsAt0 m c n (Nat.lt_of_succ_lt h)).1 (outsAt0 m c n (Nat.lt_of_succ_lt h)).2.1 (outsAt0 m c n (Nat.lt_of_succ_lt h)).2.2

/-- So after the last point of shard q the block holds the sum of the shard's 125 points' column sums. -/
theorem acc3 (c : Dev nD) (q : ℕ) (hq : 125 * q + 124 < cfg0.N) (y : S1x15x1000.Idx) :
    (outsAt0 m c (125 * q + 124) hq).2.1 y = 0 + ∑ s ∈ Finset.range 125, addend (u3 m c) (125 * q + s) (y 1).val (y 2).val := by
  rw [Pipeline.eq_accAt (fun n h => (outsAt0 m c n h).2.1) 125 (fun n h => blockOf (fun _ => 0) (u3 m c ⟨n, h⟩))
    (fun n h acc => blockOf acc (u3 m c ⟨n, h⟩)) (reset3 m c) (step3 m c) q 124 (by decide) hq]
  exact Pipeline.accAt_add_apply (fun n h => blockOf (fun _ => 0) (u3 m c ⟨n, h⟩))
    (fun n h acc => blockOf acc (u3 m c ⟨n, h⟩)) (fun _ => 0)
    (fun n y => addend (u3 m c) n (y 1).val (y 2).val) (125 * q) 124
    (fun h i => by rw [blockOf_apply, addend, dif_pos ⟨h, (i 2).isLt⟩])
    (fun n h acc i _ _ => by rw [blockOf_apply, addend, dif_pos ⟨h, (i 2).isLt⟩]) 124 le_rfl hq y

/-- The correct-label block at the first point of a shard. -/
theorem reset4 (c : Dev nD) (n : ℕ) (h : n < cfg0.N) (h0 : n % 125 = 0) :
    (outsAt0 m c n h).2.2 = blockOf (fun _ => 0) (u4 m c ⟨n, h⟩) := by
  rw [outsAt0_A m c ⟨n, h⟩ h0]
  dsimp only
  exact out_A_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr h0) (iblk m c 0 ⟨n, h⟩) (iblk m c 1 ⟨n, h⟩)

/-- and at a later point of the shard: what the point before left, plus this point's column sums. -/
theorem step4 (c : Dev nD) (n : ℕ) (h : n + 1 < cfg0.N) (h0 : ¬(n + 1) % 125 = 0) :
    (outsAt0 m c (n + 1) h).2.2 = blockOf (outsAt0 m c n (Nat.lt_of_succ_lt h)).2.2 (u4 m c ⟨n + 1, h⟩) := by
  rw [outsAt0_B m c ⟨n + 1, h⟩ h0]
  dsimp only
  exact out_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩)
    (outsAt0 m c n (Nat.lt_of_succ_lt h)).1 (outsAt0 m c n (Nat.lt_of_succ_lt h)).2.1 (outsAt0 m c n (Nat.lt_of_succ_lt h)).2.2

/-- So after the last point of shard q the block holds the sum of the shard's 125 points' column sums. -/
theorem acc4 (c : Dev nD) (q : ℕ) (hq : 125 * q + 124 < cfg0.N) (y : S1x15x1000.Idx) :
    (outsAt0 m c (125 * q + 124) hq).2.2 y = 0 + ∑ s ∈ Finset.range 125, addend (u4 m c) (125 * q + s) (y 1).val (y 2).val := by
  rw [Pipeline.eq_accAt (fun n h => (outsAt0 m c n h).2.2) 125 (fun n h => blockOf (fun _ => 0) (u4 m c ⟨n, h⟩))
    (fun n h acc => blockOf acc (u4 m c ⟨n, h⟩)) (reset4 m c) (step4 m c) q 124 (by decide) hq]
  exact Pipeline.accAt_add_apply (fun n h => blockOf (fun _ => 0) (u4 m c ⟨n, h⟩))
    (fun n h acc => blockOf acc (u4 m c ⟨n, h⟩)) (fun _ => 0)
    (fun n y => addend (u4 m c) n (y 1).val (y 2).val) (125 * q) 124
    (fun h i => by rw [blockOf_apply, addend, dif_pos ⟨h, (i 2).isLt⟩])
    (fun n h acc i _ _ => by rw [blockOf_apply, addend, dif_pos ⟨h, (i 2).isLt⟩]) 124 le_rfl hq y

end Cert.KernelIdeal.Pt

end
-- ==== Proof.KFinal.lean ====
/-
  The kernel's three result arrays after the region.  Each [2, 15, 1000] array is written back twice, once per
  shard, after the shard's last point (points 124 and 249); block g of it then holds what the accumulator block held
  there: at (g, b, cc) the sum over the shard's 125 points of their column sums for bin b at class cc.  The two
  blocks tile the array, so this names every entry.
-/
import proofs.«164000_j20916490731796_1_alg».proof.Proof.KAcc
import Idealize.ShloMosaic.Lib.Pipeline.Value

set_option maxRecDepth 16384

noncomputable section

open scoped BigOperators

namespace Cert.KernelIdeal.Pt

open Cert.KernelIdeal Cert.KernelIdeal.Gen Idealize.ShloMosaic Idealize.ShloMosaic.ValueIdx Idealize.ShloMosaic.TcCoe
open Idealize.SL Idealize.SL.Sem
open Idealize.ShloMosaic.Pipeline (Dat)

variable (m : (ℓ : Loc nD τ sig) → Buf (Elt Ideal) ℓ)

theorem acc_at2 (c : Dev nD) (n : ℕ) (h : n < cfg0.N) (q : ℕ) (hn : n = 125 * q + 124) (y : S1x15x1000.Idx) :
    (outsAt0 m c n h).1 y = 0 + ∑ s ∈ Finset.range 125, addend (u2 m c) (125 * q + s) (y 1).val (y 2).val := by
  subst hn; exact acc2 m c q h y
theorem idx_facts2 : ∀ t : Fin cfg0.N, win0_2.index t (0 : Fin 3) = t.val / 125 ∧ win0_2.index t 1 = 0 ∧ win0_2.index t 2 = 0 :=
  (by decide +kernel : ∀ t : Fin grid0.N, win0_2.index t (0 : Fin 3) = t.val / 125 ∧ win0_2.index t 1 = 0 ∧ win0_2.index t 2 = 0)

theorem acc_at3 (c : Dev nD) (n : ℕ) (h : n < cfg0.N) (q : ℕ) (hn : n = 125 * q + 124) (y : S1x15x1000.Idx) :
    (outsAt0 m c n h).2.1 y = 0 + ∑ s ∈ Finset.range 125, addend (u3 m c) (125 * q + s) (y 1).val (y 2).val := by
  subst hn; exact acc3 m c q h y
theorem idx_facts3 : ∀ t : Fin cfg0.N, win0_3.index t (0 : Fin 3) = t.val / 125 ∧ win0_3.index t 1 = 0 ∧ win0_3.index t 2 = 0 :=
  (by decide +kernel : ∀ t : Fin grid0.N, win0_3.index t (0 : Fin 3) = t.val / 125 ∧ win0_3.index t 1 = 0 ∧ win0_3.index t 2 = 0)

theorem acc_at4 (c : Dev nD) (n : ℕ) (h : n < cfg0.N) (q : ℕ) (hn : n = 125 * q + 124) (y : S1x15x1000.Idx) :
    (outsAt0 m c n h).2.2 y = 0 + ∑ s ∈ Finset.range 125, addend (u4 m c) (125 * q + s) (y 1).val (y 2).val := by
  subst hn; exact acc4 m c q h y
theorem idx_facts4 : ∀ t : Fin cfg0.N, win0_4.index t (0 : Fin 3) = t.val / 125 ∧ win0_4.index t 1 = 0 ∧ win0_4.index t 2 = 0 :=
  (by decide +kernel : ∀ t : Fin grid0.N, win0_4.index t (0 : Fin 3) = t.val / 125 ∧ win0_4.index t 1 = 0 ∧ win0_4.index t 2 = 0)

/-- What result array 0 ends holding: at (shard g, bin b, class cc) the sum over the shard's 125 points of
    their column sums. -/
def final2 (c : Dev nD) : Buf (Elt Ideal) ((c : Thread nD τ).loc main_v1_0) :=
  fun j => ((∑ s ∈ Finset.range 125, addend (u2 m c) (125 * (j 0).val + s) (j 1).val (j 2).val : EReal))

/-- The write-back after a shard's last point writes the block of it that the point's index names. -/
theorem flushed2_eq (c : Dev nD) (t : Fin cfg0.N) (hf : (cfg0.win 2).flush t = true) :
    (dats m 0 c).flushed 2 t = ((cfg0.win 2).blk t).view.read (Elt Ideal) (final2 m c) := by
  have hN : cfg0.N = 250 := N_0
  have h124 : t.val % 125 = 124 := (flush0_2 t).mp hf
  obtain ⟨f0, f1, f2⟩ := idx_facts2 t
  show (cfg0.win 2).cut (grid0.coords t) ((dats m 0 c).after 2 t) = _
  rw [after0_2]
  funext y
  rw [View.read_apply]
  show (outsAt0 m c t.val t.isLt).1 y = final2 m c (((cfg0.win 2).blk t).view.emb y)
  have hy0 : (y 0).val < 1 := (y 0).isLt
  have e0 : ((((cfg0.win 2).blk t).view.emb y) 0).val = t.val / 125 := by
    show win0_2.index t 0 * 1 + 1 * (y 0).val = _
    rw [f0]; omega
  have e1 : ((((cfg0.win 2).blk t).view.emb y) 1).val = (y 1).val := by
    show win0_2.index t 1 * 15 + 1 * (y 1).val = _
    rw [f1]; omega
  have e2 : ((((cfg0.win 2).blk t).view.emb y) 2).val = (y 2).val := by
    show win0_2.index t 2 * 1000 + 1 * (y 2).val = _
    rw [f2]; omega
  rw [acc_at2 m c t.val t.isLt (t.val / 125) (by omega) y, zero_add]
  unfold final2
  rw [e0, e1, e2]

/-- The two write-backs cover the array: shard g's block is written after point 125·g + 124. -/
theorem final2_eq (c : Dev nD) : (dats m 0 c).arrAt 2 cfg0.N = final2 m c :=
  (dats m 0 c).arrAt_eq_of_cover 2 (final2 m c) (flushed2_eq m c) fun i => by
    have hN : cfg0.N = 250 := N_0
    have hi0 : (i 0).val < 2 := (i 0).isLt
    have hi1 : (i 1).val < 15 := (i 1).isLt
    have hi2 : (i 2).val < 1000 := (i 2).isLt
    have hlt : 125 * (i 0).val + 124 < cfg0.N := by rw [hN]; omega
    refine ⟨⟨125 * (i 0).val + 124, hlt⟩, (flush0_2 _).mpr (by show (125 * (i 0).val + 124) % 125 = 124; omega), ?_⟩
    obtain ⟨f0, f1, f2⟩ := idx_facts2 ⟨125 * (i 0).val + 124, hlt⟩
    show i ∈ ((View.whole main_v1_0).slice (win0_2.rect ⟨125 * (i 0).val + 124, hlt⟩)).set
    rw [View.set_slice_whole, Rect.mem_set_unit]
    intro a
    match a with
    | ⟨0, _⟩ =>
      show win0_2.index ⟨125 * (i 0).val + 124, hlt⟩ 0 * 1 ≤ (i 0 : Nat) ∧ (i 0 : Nat) < win0_2.index ⟨125 * (i 0).val + 124, hlt⟩ 0 * 1 + 1
      rw [f0]; show (125 * (i 0).val + 124) / 125 * 1 ≤ (i 0).val ∧ (i 0).val < (125 * (i 0).val + 124) / 125 * 1 + 1; omega
    | ⟨1, _⟩ =>
      show win0_2.index ⟨125 * (i 0).val + 124, hlt⟩ 1 * 15 ≤ (i 1 : Nat) ∧ (i 1 : Nat) < win0_2.index ⟨125 * (i 0).val + 124, hlt⟩ 1 * 15 + 15
      rw [f1]; omega
    | ⟨2, _⟩ =>
      show win0_2.index ⟨125 * (i 0).val + 124, hlt⟩ 2 * 1000 ≤ (i 2 : Nat) ∧ (i 2 : Nat) < win0_2.index ⟨125 * (i 0).val + 124, hlt⟩ 2 * 1000 + 1000
      rw [f2]; omega

/-- What result array 1 ends holding: at (shard g, bin b, class cc) the sum over the shard's 125 points of
    their column sums. -/
def final3 (c : Dev nD) : Buf (Elt Ideal) ((c : Thread nD τ).loc main_v1_1) :=
  fun j => ((∑ s ∈ Finset.range 125, addend (u3 m c) (125 * (j 0).val + s) (j 1).val (j 2).val : EReal))

/-- The write-back after a shard's last point writes the block of it that the point's index names. -/
theorem flushed3_eq (c : Dev nD) (t : Fin cfg0.N) (hf : (cfg0.win 3).flush t = true) :
    (dats m 0 c).flushed 3 t = ((cfg0.win 3).blk t).view.read (Elt Ideal) (final3 m c) := by
  have hN : cfg0.N = 250 := N_0
  have h124 : t.val % 125 = 124 := (flush0_3 t).mp hf
  obtain ⟨f0, f1, f2⟩ := idx_facts3 t
  show (cfg0.win 3).cut (grid0.coords t) ((dats m 0 c).after 3 t) = _
  rw [after0_3]
  funext y
  rw [View.read_apply]
  show (outsAt0 m c t.val t.isLt).2.1 y = final3 m c (((cfg0.win 3).blk t).view.emb y)
  have hy0 : (y 0).val < 1 := (y 0).isLt
  have e0 : ((((cfg0.win 3).blk t).view.emb y) 0).val = t.val / 125 := by
    show win0_3.index t 0 * 1 + 1 * (y 0).val = _
    rw [f0]; omega
  have e1 : ((((cfg0.win 3).blk t).view.emb y) 1).val = (y 1).val := by
    show win0_3.index t 1 * 15 + 1 * (y 1).val = _
    rw [f1]; omega
  have e2 : ((((cfg0.win 3).blk t).view.emb y) 2).val = (y 2).val := by
    show win0_3.index t 2 * 1000 + 1 * (y 2).val = _
    rw [f2]; omega
  rw [acc_at3 m c t.val t.isLt (t.val / 125) (by omega) y, zero_add]
  unfold final3
  rw [e0, e1, e2]

/-- The two write-backs cover the array: shard g's block is written after point 125·g + 124. -/
theorem final3_eq (c : Dev nD) : (dats m 0 c).arrAt 3 cfg0.N = final3 m c :=
  (dats m 0 c).arrAt_eq_of_cover 3 (final3 m c) (flushed3_eq m c) fun i => by
    have hN : cfg0.N = 250 := N_0
    have hi0 : (i 0).val < 2 := (i 0).isLt
    have hi1 : (i 1).val < 15 := (i 1).isLt
    have hi2 : (i 2).val < 1000 := (i 2).isLt
    have hlt : 125 * (i 0).val + 124 < cfg0.N := by rw [hN]; omega
    refine ⟨⟨125 * (i 0).val + 124, hlt⟩, (flush0_3 _).mpr (by show (125 * (i 0).val + 124) % 125 = 124; omega), ?_⟩
    obtain ⟨f0, f1, f2⟩ := idx_facts3 ⟨125 * (i 0).val + 124, hlt⟩
    show i ∈ ((View.whole main_v1_1).slice (win0_3.rect ⟨125 * (i 0).val + 124, hlt⟩)).set
    rw [View.set_slice_whole, Rect.mem_set_unit]
    intro a
    match a with
    | ⟨0, _⟩ =>
      show win0_3.index ⟨125 * (i 0).val + 124, hlt⟩ 0 * 1 ≤ (i 0 : Nat) ∧ (i 0 : Nat) < win0_3.index ⟨125 * (i 0).val + 124, hlt⟩ 0 * 1 + 1
      rw [f0]; show (125 * (i 0).val + 124) / 125 * 1 ≤ (i 0).val ∧ (i 0).val < (125 * (i 0).val + 124) / 125 * 1 + 1; omega
    | ⟨1, _⟩ =>
      show win0_3.index ⟨125 * (i 0).val + 124, hlt⟩ 1 * 15 ≤ (i 1 : Nat) ∧ (i 1 : Nat) < win0_3.index ⟨125 * (i 0).val + 124, hlt⟩ 1 * 15 + 15
      rw [f1]; omega
    | ⟨2, _⟩ =>
      show win0_3.index ⟨125 * (i 0).val + 124, hlt⟩ 2 * 1000 ≤ (i 2 : Nat) ∧ (i 2 : Nat) < win0_3.index ⟨125 * (i 0).val + 124, hlt⟩ 2 * 1000 + 1000
      rw [f2]; omega

/-- What result array 2 ends holding: at (shard g, bin b, class cc) the sum over the shard's 125 points of
    their column sums. -/
def final4 (c : Dev nD) : Buf (Elt Ideal) ((c : Thread nD τ).loc main_v1_2) :=
  fun j => ((∑ s ∈ Finset.range 125, addend (u4 m c) (125 * (j 0).val + s) (j 1).val (j 2).val : EReal))

/-- The write-back after a shard's last point writes the block of it that the point's index names. -/
theorem flushed4_eq (c : Dev nD) (t : Fin cfg0.N) (hf : (cfg0.win 4).flush t = true) :
    (dats m 0 c).flushed 4 t = ((cfg0.win 4).blk t).view.read (Elt Ideal) (final4 m c) := by
  have hN : cfg0.N = 250 := N_0
  have h124 : t.val % 125 = 124 := (flush0_4 t).mp hf
  obtain ⟨f0, f1, f2⟩ := idx_facts4 t
  show (cfg0.win 4).cut (grid0.coords t) ((dats m 0 c).after 4 t) = _
  rw [after0_4]
  funext y
  rw [View.read_apply]
  show (outsAt0 m c t.val t.isLt).2.2 y = final4 m c (((cfg0.win 4).blk t).view.emb y)
  have hy0 : (y 0).val < 1 := (y 0).isLt
  have e0 : ((((cfg0.win 4).blk t).view.emb y) 0).val = t.val / 125 := by
    show win0_4.index t 0 * 1 + 1 * (y 0).val = _
    rw [f0]; omega
  have e1 : ((((cfg0.win 4).blk t).view.emb y) 1).val = (y 1).val := by
    show win0_4.index t 1 * 15 + 1 * (y 1).val = _
    rw [f1]; omega
  have e2 : ((((cfg0.win 4).blk t).view.emb y) 2).val = (y 2).val := by
    show win0_4.index t 2 * 1000 + 1 * (y 2).val = _
    rw [f2]; omega
  rw [acc_at4 m c t.val t.isLt (t.val / 125) (by omega) y, zero_add]
  unfold final4
  rw [e0, e1, e2]

/-- The two write-backs cover the array: shard g's block is written after point 125·g + 124. -/
theorem final4_eq (c : Dev nD) : (dats m 0 c).arrAt 4 cfg0.N = final4 m c :=
  (dats m 0 c).arrAt_eq_of_cover 4 (final4 m c) (flushed4_eq m c) fun i => by
    have hN : cfg0.N = 250 := N_0
    have hi0 : (i 0).val < 2 := (i 0).isLt
    have hi1 : (i 1).val < 15 := (i 1).isLt
    have hi2 : (i 2).val < 1000 := (i 2).isLt
    have hlt : 125 * (i 0).val + 124 < cfg0.N := by rw [hN]; omega
    refine ⟨⟨125 * (i 0).val + 124, hlt⟩, (flush0_4 _).mpr (by show (125 * (i 0).val + 124) % 125 = 124; omega), ?_⟩
    obtain ⟨f0, f1, f2⟩ := idx_facts4 ⟨125 * (i 0).val + 124, hlt⟩
    show i ∈ ((View.whole main_v1_2).slice (win0_4.rect ⟨125 * (i 0).val + 124, hlt⟩)).set
    rw [View.set_slice_whole, Rect.mem_set_unit]
    intro a
    match a with
    | ⟨0, _⟩ =>
      show win0_4.index ⟨125 * (i 0).val + 124, hlt⟩ 0 * 1 ≤ (i 0 : Nat) ∧ (i 0 : Nat) < win0_4.index ⟨125 * (i 0).val + 124, hlt⟩ 0 * 1 + 1
      rw [f0]; show (125 * (i 0).val + 124) / 125 * 1 ≤ (i 0).val ∧ (i 0).val < (125 * (i 0).val + 124) / 125 * 1 + 1; omega
    | ⟨1, _⟩ =>
      show win0_4.index ⟨125 * (i 0).val + 124, hlt⟩ 1 * 15 ≤ (i 1 : Nat) ∧ (i 1 : Nat) < win0_4.index ⟨125 * (i 0).val + 124, hlt⟩ 1 * 15 + 15
      rw [f1]; omega
    | ⟨2, _⟩ =>
      show win0_4.index ⟨125 * (i 0).val + 124, hlt⟩ 2 * 1000 ≤ (i 2 : Nat) ∧ (i 2 : Nat) < win0_4.index ⟨125 * (i 0).val + 124, hlt⟩ 2 * 1000 + 1000
      rw [f2]; omega

end Cert.KernelIdeal.Pt

end
-- ==== Proof.KInput.lean ====
/-
  The kernel's two input windows read off the argument arrays.

  The grid has 250 points; at the linear point t the first window stages rows 400·t … 400·t + 399 (all 1000 columns)
  of the confidences [100000, 1000], and the second window stages the same rows of the labels, which one host
  reshape [100000] → [100000, 1] has turned into a one-column table before the region.  A block's coordinate is
  (block index) × (block size) + (coordinate inside the block), the block index being (t, 0) for both windows; the
  reshape keeps row-major positions, so row n of the one-column table is label n.
-/
import proofs.«164000_j20916490731796_1_alg».proof.Proof.Gen.KernelIdeal.Frame
import Idealize.ShloMosaic.Lib.Pipeline.Value
import Idealize.ShloMosaic.Lib.ValueIdx

noncomputable section

namespace Cert.KernelIdeal.In

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The printed index maps of the two input windows at the linear point t: the block row t, the block column 0. -/
theorem idx_facts : ∀ t : Fin cfg0.N,
    (win0_0.index t (0 : Fin 2) = t.val ∧ win0_0.index t 1 = 0) ∧ (win0_1.index t (0 : Fin 2) = t.val ∧ win0_1.index t 1 = 0) :=
  (by decide +kernel : ∀ t : Fin grid0.N,
    (win0_0.index t (0 : Fin 2) = t.val ∧ win0_0.index t 1 = 0) ∧ (win0_1.index t (0 : Fin 2) = t.val ∧ win0_1.index t 1 = 0))

/-- Row r of the confidence block at point t is row 400·t + r of the confidences. -/
theorem conf_block (c : Dev nD) (t : Fin cfg0.N) (r : Fin 400) (cc : Fin 1000) (h : t.val * 400 + r.val < 100000) :
    (iblk m c 0 t : Vec Ideal S400x1000 .f32) (ix2 r cc)
      = m ((c.tc : Thread nD τ).loc main_arg0) (ix2 ⟨t.val * 400 + r.val, h⟩ cc) := by
  have hi := (idx_facts t).1
  unfold iblk
  rw [View.read_apply]
  show V m c main_arg0 _ = m (c.tc.loc main_arg0) _
  rw [V_main_arg0]
  congr 1
  funext a
  apply Fin.ext
  match a with
  | ⟨0, _⟩ => show win0_0.index t 0 * 400 + 1 * r.val = t.val * 400 + r.val; rw [hi.1]; omega
  | ⟨1, _⟩ => show win0_0.index t 1 * 1000 + 1 * cc.val = cc.val; rw [hi.2]; omega

/-- The labels as the region finds them: the launched labels under the reshape [100000] → [100000, 1]. -/
theorem V_main_v0 (c : Dev nD) :
    (V m c main_v0 : S100000x1.Idx → BitVec 32)
      = shapeCast S100000x1 (m ((c.tc : Thread nD τ).loc main_arg1)) shapeCasts_S100000_S100000x1 := by
  show StableHlo.after hostOps0 (fun b => m (c, b)) (Proc.devRef .tc main_v0) = _
  after_results
  rfl

/-- A [100000] vector reshaped to [100000, 1] and read at a row is the vector at that position. -/
theorem reshape_read (x : S100000.Idx → BitVec 32) (y : S100000x1.Idx) (k : Fin 100000) (hk : k.val = (y 0).val) :
    shapeCast S100000x1 x shapeCasts_S100000_S100000x1 y = x (ix1 k) := by
  have h1 : (y 1).val < 1 := (y 1).isLt
  refine shapeCast_apply _ _ _ _ ?_
  rw [Shape.rowMajor_val_two, Shape.rowMajor_val_one]
  show k.val = (y 0).val * 1 + (y 1).val
  omega

/-- Row r of the label block at point t is label 400·t + r. -/
theorem label_block (c : Dev nD) (t : Fin cfg0.N) (r : Fin 400) (h : t.val * 400 + r.val < 100000) :
    (iblk m c 1 t : Vec Ideal S400x1 .i32) (ix2 r (0 : Fin 1))
      = m ((c.tc : Thread nD τ).loc main_arg1) (ix1 ⟨t.val * 400 + r.val, h⟩) := by
  have hi := (idx_facts t).2
  unfold iblk
  rw [View.read_apply]
  show V m c main_v0 _ = m (c.tc.loc main_arg1) _
  rw [V_main_v0]
  refine reshape_read _ _ ⟨t.val * 400 + r.val, h⟩ ?_
  show t.val * 400 + r.val = win0_1.index t 0 * 400 + 1 * r.val
  rw [hi.1]
  omega

end Cert.KernelIdeal.In

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.KHost.lean ====
/-
  The kernel's host steps after its region.

  Each of the kernel's three result arrays has shape [2, 15, 1000] (shard, bin, class).  The host sums it over the two
  shards and transposes the [15, 1000] result to [1000, 15]: entry (class c, bin b) of the table is the sum over the
  shards g of the array's entry (g, b, c).  Shard g handles the samples 50000·g … 50000·g + 49999 in 125 tiles of 400, so
  a sum over shards, tiles and rows of a function of the sample number (125·g + i)·400 + r is the sum over all
  100000 samples.
-/
import proofs.«164000_j20916490731796_1_alg».proof.Proof.Gen.KernelIdeal
import proofs.«164000_j20916490731796_1_alg».proof.Proof.LibTileSum
import Idealize.ShloMosaic.Lib.Pipeline.Value
import Idealize.ShloMosaic.Lib.ValueIdx
import Idealize.ShloMosaic.PureOps.Ideal.Laws

noncomputable section

open scoped BigOperators

namespace Cert.KernelIdeal.Host

open Cert.KernelIdeal Cert.KernelIdeal.Gen Idealize.ShloMosaic Idealize.ShloMosaic.ValueIdx

/-- The sum over the shard axis from the zero word, transposed, read at (class c, bin b): the sum over the two shards
    of the array's entry (g, b, c). -/
theorem table_apply (A : FVec Ideal S2x15x1000 .f32) (c : Fin 1000) (b : Fin 15) :
    transpose S1000x15 [1, 0] (Host.reduceAdd (F := Ideal) A (constant (F := Ideal) S_ .f32 0x00000000#32) reducesTo_S2x15x1000_S15x1000_d0 h_S_) transposes_S15x1000_S1000x15_1_0 (ix2 c b)
      = ∑ g : Fin 2, A (ix3 g b c) := by
  rw [transpose_apply [1, 0] _ transposes_S15x1000_S1000x15_1_0 (ix2 c b) (ix2 b c)
    (fun a => match a with | ⟨0, _⟩ => rfl | ⟨1, _⟩ => rfl)]
  simp only [Host.reduceAdd, Ideal.hostReduceAdd_def]
  rw [Ideal.hostReduceAdd_single reducesTo_S2x15x1000_S15x1000_d0 (by decide), constant_apply,
    Ideal.ofBits_zero_f32, zero_add]
  refine Finset.sum_congr rfl fun g _ => ?_
  exact congrArg A (funext fun a => Fin.ext (by match a with | ⟨0, _⟩ => rfl | ⟨1, _⟩ => rfl | ⟨2, _⟩ => rfl))

/-- Inside shard `g`: the 125 tiles of 400 rows are its 50000 samples. -/
theorem shard_tiles (f : ℕ → EReal) (g : ℕ) :
    ∑ i : Fin 125, ∑ r : Fin 400, f ((g * 125 + i.val) * 400 + r.val) = ∑ s : Fin 50000, f (g * 50000 + s.val) := by
  have e : ∀ (i : Fin 125) (r : Fin 400), (g * 125 + i.val) * 400 + r.val = g * 50000 + (i.val * 400 + r.val) := by
    intro i r
    omega
  calc ∑ i : Fin 125, ∑ r : Fin 400, f ((g * 125 + i.val) * 400 + r.val)
      = ∑ i : Fin 125, ∑ r : Fin 400, f (g * 50000 + (i.val * 400 + r.val)) := by
        refine Finset.sum_congr rfl fun i _ => Finset.sum_congr rfl fun r _ => ?_
        rw [e]
    _ = ∑ s : Fin (125 * 400), f (g * 50000 + s.val) :=
        Cert.LibTileSum.tile_sum_fin 400 (fun s => f (g * 50000 + s)) 125
    _ = ∑ s ∈ Finset.range (125 * 400), f (g * 50000 + s) :=
        Fin.sum_univ_eq_sum_range (fun s => f (g * 50000 + s)) (125 * 400)
    _ = ∑ s ∈ Finset.range 50000, f (g * 50000 + s) := by
        rw [show 125 * 400 = 50000 from by norm_num]
    _ = ∑ s : Fin 50000, f (g * 50000 + s.val) :=
        (Fin.sum_univ_eq_sum_range (fun s => f (g * 50000 + s)) 50000).symm

/-- The two shards' sample ranges, each in 125 tiles of 400 rows, are the 100000 samples. -/
theorem shard_sum (f : ℕ → EReal) :
    ∑ g : Fin 2, ∑ i : Fin 125, ∑ r : Fin 400, f ((g.val * 125 + i.val) * 400 + r.val) = ∑ n : Fin 100000, f n.val := by
  calc ∑ g : Fin 2, ∑ i : Fin 125, ∑ r : Fin 400, f ((g.val * 125 + i.val) * 400 + r.val)
      = ∑ g : Fin 2, ∑ s : Fin 50000, f (g.val * 50000 + s.val) :=
        Finset.sum_congr rfl fun g _ => shard_tiles f g.val
    _ = ∑ n : Fin (2 * 50000), f n.val := Cert.LibTileSum.tile_sum_fin 50000 f 2
    _ = ∑ n ∈ Finset.range (2 * 50000), f n := Fin.sum_univ_eq_sum_range f (2 * 50000)
    _ = ∑ n ∈ Finset.range 100000, f n := by
        rw [show 2 * 50000 = 100000 from by norm_num]
    _ = ∑ n : Fin 100000, f n.val := (Fin.sum_univ_eq_sum_range f 100000).symm

end Cert.KernelIdeal.Host

end
-- ==== Proof.KValue.lean ====
/-
  The kernel's three tables are the specification's.  Summed over its two shards, a result array's entry
  (bin b, class cc) is the sum over shards g, points s of the shard and rows r of the point's tile of the summed
  array's entry; point 125·g + s holds rows (125·g + s)·400 … + 399 of the confidence table and of the labels, so
  the triple sum runs over the samples n = (125·g + s)·400 + r, each once, and the summed array's entry is the
  specification's term for sample n: the bin-b indicator of x(n, cc), that indicator times x(n, cc), that indicator
  times the indicator that sample n's label is cc.
-/
import proofs.«164000_j20916490731796_1_alg».proof.Proof.KFinal
import proofs.«164000_j20916490731796_1_alg».proof.Proof.KInput
import proofs.«164000_j20916490731796_1_alg».proof.Proof.KHost

set_option maxRecDepth 16384

noncomputable section

open scoped BigOperators

namespace Cert.KernelIdeal.Pt

open Cert.KernelIdeal Cert.KernelIdeal.Gen Idealize.ShloMosaic Idealize.ShloMosaic.ValueIdx Idealize.ShloMosaic.TcCoe
open Idealize.SL Idealize.SL.Sem

variable (m : (ℓ : Loc nD τ sig) → Buf (Elt Ideal) ℓ)

/-- A function of the samples extended by zero to every natural number. -/
def padded (e : Fin 100000 → EReal) (k : ℕ) : EReal := if h : k < 100000 then e ⟨k, h⟩ else 0

/-- Shards, points and rows run over the samples: if point t's summed array at row r is sample (400·t + r)'s term,
    the sum over both shards of the shard sums is the sum over all samples of their terms. -/
theorem table_sum (uu : Fin cfg0.N → BitVec 32 → FVec Ideal S400x1000 .f32) (b : ℕ) (cc : Fin 1000) (e : Fin 100000 → EReal)
    (he : ∀ (t : Fin cfg0.N) (r : Fin 400) (h : t.val * 400 + r.val < 100000),
      uu t (BitVec.ofNat 32 b) (ix2 r cc) = e ⟨t.val * 400 + r.val, h⟩) :
    ∑ g : Fin 2, ∑ s ∈ Finset.range 125, addend uu (125 * g.val + s) b cc.val = ∑ n : Fin 100000, e n := by
  have hN : cfg0.N = 250 := N_0
  have h1 : ∀ g : Fin 2, ∑ s ∈ Finset.range 125, addend uu (125 * g.val + s) b cc.val
      = ∑ i : Fin 125, ∑ r : Fin 400, padded e ((g.val * 125 + i.val) * 400 + r.val) := by
    intro g
    rw [← Fin.sum_univ_eq_sum_range (fun s => addend uu (125 * g.val + s) b cc.val) 125]
    refine Finset.sum_congr rfl fun i _ => ?_
    have hg : g.val < 2 := g.isLt
    have hi : i.val < 125 := i.isLt
    have ht : 125 * g.val + i.val < cfg0.N := by rw [hN]; omega
    rw [addend, dif_pos ⟨ht, cc.isLt⟩]
    unfold colsum
    refine Finset.sum_congr rfl fun r _ => ?_
    have hr : r.val < 400 := r.isLt
    have hk : (125 * g.val + i.val) * 400 + r.val < 100000 := by omega
    have hk' : (g.val * 125 + i.val) * 400 + r.val < 100000 := by omega
    refine (he ⟨125 * g.val + i.val, ht⟩ r hk).trans ?_
    rw [padded, dif_pos hk']
    exact congrArg e (Fin.ext (by show (125 * g.val + i.val) * 400 + r.val = (g.val * 125 + i.val) * 400 + r.val; omega))
  rw [Finset.sum_congr rfl fun g _ => h1 g, Cert.KernelIdeal.Host.shard_sum]
  refine Finset.sum_congr rfl fun n _ => ?_
  rw [padded, dif_pos n.isLt]

/-- The result arrays' entries as extended reals. -/
def entry2 (c : Dev nD) (g : Fin 2) (b : Fin 15) (cc : Fin 1000) : EReal := final2 m c (ix3 g b cc)
def entry3 (c : Dev nD) (g : Fin 2) (b : Fin 15) (cc : Fin 1000) : EReal := final3 m c (ix3 g b cc)
def entry4 (c : Dev nD) (g : Fin 2) (b : Fin 15) (cc : Fin 1000) : EReal := final4 m c (ix3 g b cc)

/-- The counts table. -/
theorem counts_entry (c : Dev nD) (cc : Fin 1000) (b : Fin 15) :
    ∑ g : Fin 2, entry2 m c g b cc = Cert.Ece.countAt (m ((c.tc : Thread nD τ).loc main_arg0)) cc b := by
  unfold Cert.Ece.countAt
  exact table_sum (u2 m c) b.val cc
    (fun n => if Cert.Ece.inBin ((m ((c.tc : Thread nD τ).loc main_arg0)) (ix2 n cc)) (BitVec.ofNat 32 b.val) = 1#1 then (1 : EReal) else 0) (fun t r h => by
    show maskv (BitVec.ofNat 32 b.val) (iblk m c 0 t) (ix2 r cc) = _
    rw [maskv_apply, Cert.KernelIdeal.In.conf_block m c t r cc h, Cert.Ece.ind_eq])

/-- The confidence-sum table. -/
theorem confs_entry (c : Dev nD) (cc : Fin 1000) (b : Fin 15) :
    ∑ g : Fin 2, entry3 m c g b cc = Cert.Ece.confAt (m ((c.tc : Thread nD τ).loc main_arg0)) cc b := by
  unfold Cert.Ece.confAt
  exact table_sum (u3 m c) b.val cc
    (fun n => if Cert.Ece.inBin ((m ((c.tc : Thread nD τ).loc main_arg0)) (ix2 n cc)) (BitVec.ofNat 32 b.val) = 1#1 then (m ((c.tc : Thread nD τ).loc main_arg0)) (ix2 n cc) else 0) (fun t r h => by
    show mulf (maskv (BitVec.ofNat 32 b.val) (iblk m c 0 t)) (iblk m c 0 t) (ix2 r cc) = _
    rw [mulf_apply, maskv_apply, Cert.KernelIdeal.In.conf_block m c t r cc h, Cert.Ece.ind_mul])

/-- The correct-label table. -/
theorem corrs_entry (c : Dev nD) (cc : Fin 1000) (b : Fin 15) :
    ∑ g : Fin 2, entry4 m c g b cc
      = Cert.Ece.corrAt (m ((c.tc : Thread nD τ).loc main_arg0)) (m ((c.tc : Thread nD τ).loc main_arg1)) cc b := by
  unfold Cert.Ece.corrAt
  exact table_sum (u4 m c) b.val cc
    (fun n => if Cert.Ece.inBin ((m ((c.tc : Thread nD τ).loc main_arg0)) (ix2 n cc)) (BitVec.ofNat 32 b.val) = 1#1
      then Cert.Ece.ind (Cert.Ece.hit ((m ((c.tc : Thread nD τ).loc main_arg1)) (ix1 n)) (BitVec.ofNat 32 cc.val)) else 0) (fun t r h => by
    show mulf (maskv (BitVec.ofNat 32 b.val) (iblk m c 0 t)) (k0_pay7 (iblk m c 1 t)) (ix2 r cc) = _
    rw [mulf_apply, maskv_apply, hitv_apply, Cert.KernelIdeal.In.conf_block m c t r cc h,
      Cert.KernelIdeal.In.label_block m c t r h, Cert.Ece.ind_mul])

/-- Summed over the shards and transposed, the three result arrays are the specification's tables. -/
theorem counts_tbl (c : Dev nD) :
    transpose S1000x15 [1, 0] (Host.reduceAdd (F := Ideal) (final2 m c) (constant (F := Ideal) S_ .f32 0x00000000#32) reducesTo_S2x15x1000_S15x1000_d0 h_S_) transposes_S15x1000_S1000x15_1_0
      = Cert.Ece.counts (m ((c.tc : Thread nD τ).loc main_arg0)) := by
  funext j
  obtain ⟨cc, b, rfl⟩ : ∃ (cc : Fin 1000) (b : Fin 15), j = ix2 cc b := ⟨j 0, j 1, eq_ix2 j⟩
  rw [Cert.KernelIdeal.Host.table_apply]
  exact counts_entry m c cc b

theorem confs_tbl (c : Dev nD) :
    transpose S1000x15 [1, 0] (Host.reduceAdd (F := Ideal) (final3 m c) (constant (F := Ideal) S_ .f32 0x00000000#32) reducesTo_S2x15x1000_S15x1000_d0 h_S_) transposes_S15x1000_S1000x15_1_0
      = Cert.Ece.confs (m ((c.tc : Thread nD τ).loc main_arg0)) := by
  funext j
  obtain ⟨cc, b, rfl⟩ : ∃ (cc : Fin 1000) (b : Fin 15), j = ix2 cc b := ⟨j 0, j 1, eq_ix2 j⟩
  rw [Cert.KernelIdeal.Host.table_apply]
  exact confs_entry m c cc b

theorem corrs_tbl (c : Dev nD) :
    transpose S1000x15 [1, 0] (Host.reduceAdd (F := Ideal) (final4 m c) (constant (F := Ideal) S_ .f32 0x00000000#32) reducesTo_S2x15x1000_S15x1000_d0 h_S_) transposes_S15x1000_S1000x15_1_0
      = Cert.Ece.corrs (m ((c.tc : Thread nD τ).loc main_arg0)) (m ((c.tc : Thread nD τ).loc main_arg1)) := by
  funext j
  obtain ⟨cc, b, rfl⟩ : ∃ (cc : Fin 1000) (b : Fin 15), j = ix2 cc b := ⟨j 0, j 1, eq_ix2 j⟩
  rw [Cert.KernelIdeal.Host.table_apply]
  exact corrs_entry m c cc b

end Cert.KernelIdeal.Pt

end
-- ==== Proof.KTail.lean ====
/-
  The kernel program's host operations after its region, as the closing arithmetic of the specification.

  Each of the region's three result arrays, of shape [2, 15, 1000] (shard, bin, class), is summed over its two shards from
  the zero word and transposed to (class, bin): a 1000 × 15 table.  What follows on the three tables is, operation for
  operation, the closing arithmetic `Cert.Ece.tail`: the share of the samples in each bin, the mean confidence and the
  accuracy over max(count, 1), their distance weighted by the share where the bin is nonempty, summed over the bins and
  averaged over the 1000 classes.
-/
import proofs.«164000_j20916490731796_1_alg».proof.Proof.Gen.KernelIdeal.Frame
import proofs.«164000_j20916490731796_1_alg».proof.Proof.Spec
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- One result array summed over its two shards and transposed to (class, bin). -/
def tbl (A : FVec Ideal S2x15x1000 .f32) : FVec Ideal S1000x15 .f32 :=
  transpose S1000x15 [1, 0] (Host.reduceAdd (F := Ideal) A (constant (F := Ideal) S_ .f32 0x00000000#32) reducesTo_S2x15x1000_S15x1000_d0 h_S_) transposes_S15x1000_S1000x15_1_0

/-- The operations after the region, run from any contents `W` of the buffers: the result is the closing arithmetic on the
    tables of the three result arrays as `W` holds them. -/
theorem chain_read (W : Valuation τ sig (Elt Ideal)) :
    StableHlo.after (List.flatten [hostOps1 (F := Ideal), hostOps1_1 (F := Ideal), hostOps1_2 (F := Ideal)]) W (Proc.devRef .tc main_v22)
      = Cert.Ece.tail (tbl (W (Proc.devRef .tc main_v1_0))) (tbl (W (Proc.devRef .tc main_v1_1))) (tbl (W (Proc.devRef .tc main_v1_2)))
          bcast_S_S1000x15 reducesTo_S1000x15_S1000_d1 reducesTo_S1000_S_d0 h_S_ := by
  simp only [hostOps1, hostOps1_1, hostOps1_2, List.flatten_cons, List.flatten_nil, List.append_nil, List.cons_append,
    List.nil_append]
  after_results_simp
  unfold Cert.Ece.tail tbl
  rfl

/-- THE KERNEL'S RESULT: the closing arithmetic on the tables of the region's three result arrays. -/
theorem tail_read (c : Dev nD) :
    Pipeline.afterTail₀ cfgs (dats m) 0 (V0 m) [hostOps1, hostOps1_1, hostOps1_2] c main_v22
      = Cert.Ece.tail (tbl ((dats m 0 c).arrAt 2 cfg0.N)) (tbl ((dats m 0 c).arrAt 3 cfg0.N)) (tbl ((dats m 0 c).arrAt 4 cfg0.N))
          bcast_S_S1000x15 reducesTo_S1000x15_S1000_d1 reducesTo_S1000_S_d0 h_S_ := by
  unfold Pipeline.afterTail₀
  refine (chain_read _).trans ?_
  have e2 : Pipeline.withArrays (cfgs 0).spec c (V0 m c) (fun w => (dats m 0 c).arrAt w (cfgs 0).N) (Proc.devRef .tc main_v1_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v1_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v1_2)
      = (dats m 0 c).arrAt 4 cfg0.N := Pipeline.withArrays_arr spec0 launch0.win.arr_inj c _ _ 4
  rw [e2, e3, e4]

end Cert.KernelIdeal.Tail

end
-- ==== Proof.KRun.lean ====
/-
  The kernel program's run at the ideal instance, with its result named: every weakly fair execution terminates with
  the result buffer at the closing arithmetic of the specification's three tables of the argument arrays, and the
  arguments unchanged.  The region leaves its three result arrays at their closed forms; the host operations after it
  sum each over its two shards, transpose it, and apply the closing arithmetic.
-/
import proofs.«164000_j20916490731796_1_alg».proof.Proof.KValue
import proofs.«164000_j20916490731796_1_alg».proof.Proof.KTail

set_option maxRecDepth 16384

noncomputable section

namespace Cert.KernelIdeal.Pt

open Cert.KernelIdeal Cert.KernelIdeal.Gen Idealize.ShloMosaic Idealize.ShloMosaic.TcCoe
open Idealize.SL Idealize.SL.Sem

variable (m : (ℓ : Loc nD τ sig) → Buf (Elt Ideal) ℓ) (ρ : Dev nD → PrngReg)

/-- The result as a function of the argument arrays. -/
def result (c : Dev nD) : Buf (Elt Ideal) ((c.tc : Thread nD τ).loc main_v22) :=
  Cert.Ece.tail (Cert.Ece.counts (m ((c.tc : Thread nD τ).loc main_arg0))) (Cert.Ece.confs (m ((c.tc : Thread nD τ).loc main_arg0)))
    (Cert.Ece.corrs (m ((c.tc : Thread nD τ).loc main_arg0)) (m ((c.tc : Thread nD τ).loc main_arg1)))
    bcast_S_S1000x15 reducesTo_S1000x15_S1000_d1 reducesTo_S1000_S_d0 h_S_

/-- After the host operations that follow the region the result buffer holds `result`. -/
theorem tail_eq (c : Dev nD) :
    Pipeline.afterTail₀ cfgs (dats m) 0 (V0 m) [hostOps1, hostOps1_1, hostOps1_2] c main_v22 = result m c := by
  rw [Cert.KernelIdeal.Tail.tail_read m c, final2_eq m c, final3_eq m c, final4_eq m c]
  unfold Cert.KernelIdeal.Tail.tbl result
  rw [counts_tbl m c, confs_tbl m c, corrs_tbl m c]

theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v22 (Pipeline.mem_restRefs_of main_v22 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Pt

end
-- ==== Proof.lean ====
/-
  The claim: the kernel (a two-shard grid of 125 row tiles accumulating, per class and bin, how many samples fall in
  the bin, the sum of their confidences and the number of them labelled with the class, then a closing average of
  |mean confidence − accuracy| weighted by the bin's share) and the reference (the same three tables by a scatter into
  15001 segments over the flattened confidence table, then the same closing arithmetic) end, over the extended reals
  and from memories agreeing on the arguments, with equal results.  Both results are the closing arithmetic
  (`Cert.Ece.tail`) of the specification's three tables (`Cert.Ece.counts`, `confs`, `corrs`): the kernel's by the
  accumulation over its grid read off its frame run, the reference's by reading its scatters at a segment.  The sums
  involved are re-ordered only, which needs no finiteness; the precondition is not opened.  The three frames are the
  programs' runs; the ideal pass rewrote nothing, so `preserves` is `True`.
-/
import proofs.«164000_j20916490731796_1_alg».proof.Defs
import proofs.«164000_j20916490731796_1_alg».proof.Proof.Gen.Kernel
import proofs.«164000_j20916490731796_1_alg».proof.Proof.Gen.Kernel.Skeleton
import proofs.«164000_j20916490731796_1_alg».proof.Proof.Gen.Kernel.Launch
import proofs.«164000_j20916490731796_1_alg».proof.Proof.Gen.Kernel.Points
import proofs.«164000_j20916490731796_1_alg».proof.Proof.Gen.Kernel.Frame
import proofs.«164000_j20916490731796_1_alg».proof.Proof.Gen.KernelIdeal
import proofs.«164000_j20916490731796_1_alg».proof.Proof.Gen.KernelIdeal.Skeleton
import proofs.«164000_j20916490731796_1_alg».proof.Proof.Gen.KernelIdeal.Launch
import proofs.«164000_j20916490731796_1_alg».proof.Proof.Gen.KernelIdeal.Points
import proofs.«164000_j20916490731796_1_alg».proof.Proof.Gen.KernelIdeal.Frame
import proofs.«164000_j20916490731796_1_alg».proof.Proof.Gen.ReferenceIdeal
import proofs.«164000_j20916490731796_1_alg».proof.Proof.Gen.Pre_finite_inputs
import proofs.«164000_j20916490731796_1_alg».proof.Proof.RefRead
import proofs.«164000_j20916490731796_1_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the closing arithmetic of the three tables of arguments that agree. -/
theorem algebraic : Cert.algebraic_KernelIdeal_ReferenceIdeal := by
  intro m ρ m' ρ' _ hagree
  refine ⟨fun c => Cert.KernelIdeal.Pt.result m c, Cert.KernelIdeal.Pt.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v58_eq, (hagree c).1, (hagree c).2]
  exact Cert.RefRead.result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
